-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S5000x128 : Shape := ⟨2, ![5000, 128]⟩
abbrev S900000x128 : Shape := ⟨2, ![900000, 128]⟩
abbrev S1x128 : Shape := ⟨2, ![1, 128]⟩

abbrev nBuf : Space → Nat
  | .hbm => 63
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x800000, .i32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S900000, .i32⟩
  | .hbm, ⟨22, _⟩ => ⟨S900000, .i1⟩
  | .hbm, ⟨23, _⟩ => ⟨S_, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S900000x1, .i32⟩
  | .hbm, ⟨28, _⟩ => ⟨S900000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S900000, .f32⟩
  | .hbm, ⟨39, _⟩ => ⟨S100000x128, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x128, .f32⟩
  | .hbm, ⟨49, _⟩ => ⟨S900000x1, .f32⟩
  | .hbm, ⟨50, _⟩ => ⟨S900000x128, .f32⟩
  | .hbm, ⟨51, _⟩ => ⟨S900000x128, .f32⟩
  | .hbm, ⟨52, _⟩ => ⟨S_, .f32⟩
  | .hbm, ⟨53, _⟩ => ⟨S100000x128, .f32⟩
  | .hbm, ⟨54, _⟩ => ⟨S900000x1, .i32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .hbm, ⟨60, _⟩ => ⟨S1x128, .f32⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v44_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44_1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44_2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x800000, .i32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S900000, .i32⟩
  | .hbm, ⟨22, _⟩ => ⟨S900000, .i1⟩
  | .hbm, ⟨23, _⟩ => ⟨S_, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S900000x1, .i32⟩
  | .hbm, ⟨28, _⟩ => ⟨S900000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S900000, .f32⟩
  | .hbm, ⟨39, _⟩ => ⟨S100000x128, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x128, .f32⟩
  | .hbm, ⟨49, _⟩ => ⟨S900000x1, .f32⟩
  | .hbm, ⟨50, _⟩ => ⟨S900000x128, .f32⟩
  | .hbm, ⟨51, _⟩ => ⟨S900000x128, .f32⟩
  | .hbm, ⟨52, _⟩ => ⟨S_, .f32⟩
  | .hbm, ⟨53, _⟩ => ⟨S100000x128, .f32⟩
  | .hbm, ⟨54, _⟩ => ⟨S900000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

class Facts : Prop extends Facts₀ where

variable [Facts]
-- ==== Proof.K.Project.lean ====
/-
  The first kernel region: h = x · W, one block of 5000 rows of x per grid point against the whole of W.
  At a grid point t the body is handed rows 5000·t … 5000·t + 4999 of x and all of W, and leaves in the
  output window's buffer the matrix product of the two (both narrowed to bf16 first, which an exact
  instance reads as the identity), accumulated into zero. Stated at any float instance: what the buffers
  hold is named through the body's one payload, never computed.
-/
import proofs.«110603_j82575041232956_1_alg».proof.Proof.Gen.Kernel.Launch
import proofs.«110603_j82575041232956_1_alg».proof.Proof.Gen.Kernel.Skeleton
import proofs.«110603_j82575041232956_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-- The block of window `w` at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetched it or an earlier one did
    (the block index has not moved since): the rows of x, fetched at every point. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for W, fetched once at the first point and resident afterwards. -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole of a 5000×128 buffer, and the whole of a 128×128 one: the only rectangles the body touches. -/
abbrev rowsRect : Rect S5000x128 := Rect.unit (s := S5000x128) ![0, 0] S5000x128.size inb_S5000x128_S5000x128_0_0
abbrev wRect : Rect S128x128 := Rect.unit (s := S128x128) ![0, 0] S128x128.size inb_S128x128_S128x128_0_0

/-- What the body leaves in the output window's buffer: its one store, of the product of the two loaded blocks. -/
def product (x0 : Vec F S5000x128 .f32) (x1 : Vec F S128x128 .f32) : Vec F S5000x128 .f32 :=
  View.canon [⟨rowsRect, k0_pay1 (View.ld x0 rowsRect) (View.ld x1 wRect)⟩]

/-- The one store covers the buffer. -/
theorem product_cover (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

set_option maxHeartbeats 1000000 in
/-- The body on whole buffers: the two inputs at known contents, the output at anything; it returns the inputs
    untouched and the output at `product` of them. -/
theorem body_runs (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x0 : Vec F S5000x128 .f32) (x1 : Vec F S128x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (product x0 x1)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core `c`: the arrays as the region finds them; after the body each input buffer
    still at its block and the output buffer at the product of the two blocks; the invariant only the buffers and
    register the body never names; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => product (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_h (c : Dev nD) (t : Fin cfg0.N) : (dat V c).after 2 t = product (blk V c 0 t) (blk V c 1 t) := by dsimp only [dat]

theorem before_x (c : Dev nD) (t : Fin cfg0.N) (d) : (dat V c).before 0 t d = blk V c 0 t :=
  before_x_of V (dat V c) (dat_A V c 0) (after_x V c) t d
theorem before_w (c : Dev nD) (t : Fin cfg0.N) (d) : (dat V c).before 1 t d = blk V c 1 t :=
  before_w_of V (dat V c) (dat_A V c 1) (after_w V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_h]
  iintro ⟨HΦ, Ho, ⟨%d0, H0⟩, ⟨%d1, H1⟩, ⟨%d2, H2⟩⟩
  iapply (body_runs c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat (F := F) V c) (defs₀ (F := F)) Variants.none () Set.univ := fun t => by
  rw [bigSep_W0, bigSep_W0]
  exact body_at V c t

end Cert.Kernel.Project

end
-- ==== Proof.K.StatsBody.lean ====
/-
  The second kernel region: a = agg + b, block by block, with the column sums Σ a and Σ a² carried in two
  1×128 scratch rows across the twenty grid points, and — at the last point only — the mean Σa / n and the
  variance Σa² / n − mean² stored into two 1×128 output rows.
  The scratch rows are zeroed at the first point, so after point t they hold the sums over the rows of blocks
  0 … t; this is stated by recursion on the point and kept in the region's invariant. The two statistic rows are
  left untouched (and not written back) at every point but the last. Stated at any float instance through the
  body's payload names.
-/
import proofs.«110603_j82575041232956_1_alg».proof.Proof.Gen.Kernel.Launch
import proofs.«110603_j82575041232956_1_alg».proof.Proof.Gen.Kernel.Skeleton
import proofs.«110603_j82575041232956_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## Which points zero the sums, which store the statistics -/

/-- The body's first conditional: the grid coordinate is 0. -/
abbrev isFirst (i : grid1.Coords) : Prop := (Scalar.cmpi .ne (Scalar.extui (Scalar.cmpi .eq (BitVec.ofNat 32 (i 0).val) 0#32)) 0#32) = 1#1
/-- The body's second conditional: the grid coordinate is 19. -/
abbrev isLast (i : grid1.Coords) : Prop := k1_cond2 i = 1#1
theorem isFirst_iff : ∀ t : Fin cfg1.N, isFirst (grid1.coords t) ↔ t.val % 20 = 0 :=
  (by decide +kernel : ∀ t : Fin grid1.N, isFirst (grid1.coords t) ↔ t.val % 20 = 0)
theorem isLast_iff : ∀ t : Fin cfg1.N, isLast (grid1.coords t) ↔ t.val % 20 = 19 :=
  (by decide +kernel : ∀ t : Fin grid1.N, isLast (grid1.coords t) ↔ t.val % 20 = 19)

/-- The block windows are never idle; the two statistic rows are idle, and not written back, except at the last point. -/
theorem live_agg : ∀ t : Fin cfg1.N, cfg1.idle 0 (grid1.coords t) = false := by decide +kernel
theorem live_bias : ∀ t : Fin cfg1.N, cfg1.idle 1 (grid1.coords t) = false := by decide +kernel
theorem live_a : ∀ t : Fin cfg1.N, cfg1.idle 2 (grid1.coords t) = false := by decide +kernel
theorem idle_mean : ∀ t : Fin cfg1.N, ¬isLast (grid1.coords t) → cfg1.idle 3 (grid1.coords t) = true := by decide +kernel
theorem idle_var : ∀ t : Fin cfg1.N, ¬isLast (grid1.coords t) → cfg1.idle 4 (grid1.coords t) = true := by decide +kernel
theorem noFlush_mean : ∀ t : Fin cfg1.N, ¬isLast (grid1.coords t) → (cfg1.win 3).flush t = false := by decide +kernel
theorem noFlush_var : ∀ t : Fin cfg1.N, ¬isLast (grid1.coords t) → (cfg1.win 4).flush t = false := by decide +kernel
theorem live_mean : ∀ t : Fin cfg1.N, isLast (grid1.coords t) → cfg1.idle 3 (grid1.coords t) = false := by decide +kernel
theorem live_var : ∀ t : Fin cfg1.N, isLast (grid1.coords t) → cfg1.idle 4 (grid1.coords t) = false := by decide +kernel

/-! ## The blocks -/

/-- The block of window `w` at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the point fetched it or an earlier one did: the rows of the aggregate, fetched at every point, -/
theorem before_agg_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- and the bias row, fetched once and resident. -/
theorem before_bias_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The offsets of every access in the body are zero: each touches a whole buffer. -/
theorem zeros2 : (![0, 0] : Fin 2 → ℕ) = fun _ => 0 := by funext a; fin_cases a <;> rfl

/-- The two scratch rows the kernel carries between points. -/
abbrev sumM : Memref sig .tc .vmem S1x128 .f32 := Memref.whole cc1_scratch0
abbrev sqM : Memref sig .tc .vmem S1x128 .f32 := Memref.whole cc1_scratch1

/-! ## The body, case by case, on whole buffers -/

set_option maxHeartbeats 2000000 in
/-- At the first point: the sums are zeroed, then the block's column sums added; the statistic rows are left as found. -/
theorem runs_first (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole)
    (hc1 : isFirst i) (hc2 : ¬ isLast i)
    (x0 : Vec F S5000x128 .f32) (xb : Vec F S1x128 .f32) (y3 y4 : Vec F S1x128 .f32) (K : PUnit → sProp 𝕄) :
    iprop(owns (c : Thread nD τ) a1 fullShare x0 ∗ owns (c : Thread nD τ) a2 fullShare xb ∗ (∃ d, owns (c : Thread nD τ) a3 fullShare d)
        ∗ owns (c : Thread nD τ) a4 fullShare y3 ∗ owns (c : Thread nD τ) a5 fullShare y4
        ∗ (∃ d, owns (c : Thread nD τ) a6 fullShare d) ∗ (∃ d, owns (c : Thread nD τ) a7 fullShare d)
        ∗ (iprop(owns (c : Thread nD τ) a1 fullShare x0 ∗ owns (c : Thread nD τ) a2 fullShare xb
            ∗ owns (c : Thread nD τ) a3 fullShare (k1_pay3 x0 xb)
            ∗ owns (c : Thread nD τ) a4 fullShare y3 ∗ owns (c : Thread nD τ) a5 fullShare y4
            ∗ owns (c : Thread nD τ) a6 fullShare (k1_pay4 x0 xb (k1_pay1 (F := F)))
            ∗ owns (c : Thread nD τ) a7 fullShare (k1_pay5 x0 xb (k1_pay2 (F := F)))) -∗ K ⟨⟩))
      ⊢ wp frame (wpE (defs₀ (F := F)) Variants.none c none) E (cc1_kernel i a1 h1 a2 h2 a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero zeros2 inb_S5000x128_S5000x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  iexists _; isplitr
  swap; · iexact H6
  ipureintro
  sl_unfold_words
  rw [View.read_writes_eq_canon _ _ _ (fun y => ⟨_, List.mem_cons_self .., View.mem_set_unit_zero zeros2 inb_S1x128_S1x128_0_0 y⟩), View.canon_cons_unit_zero zeros2]
  simp only [View.readAt_eq_ld, View.ld_unit_zero (S := S5000x128) zeros2, View.ld_unit_zero (S := S1x128) zeros2, View.readCov_unit_zero (S := S1x128) _ zeros2]

set_option maxHeartbeats 2000000 in
/-- At a point that is neither first nor last: the block's column sums are added to the carried sums. -/
theorem runs_middle (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole)
    (hc1 : ¬ isFirst i) (hc2 : ¬ isLast i)
    (x0 : Vec F S5000x128 .f32) (xb : Vec F S1x128 .f32) (y3 y4 s q : Vec F S1x128 .f32) (K : PUnit → sProp 𝕄) :
    iprop(owns (c : Thread nD τ) a1 fullShare x0 ∗ owns (c : Thread nD τ) a2 fullShare xb ∗ (∃ d, owns (c : Thread nD τ) a3 fullShare d)
        ∗ owns (c : Thread nD τ) a4 fullShare y3 ∗ owns (c : Thread nD τ) a5 fullShare y4
        ∗ owns (c : Thread nD τ) a6 fullShare s ∗ owns (c : Thread nD τ) a7 fullShare q
        ∗ (iprop(owns (c : Thread nD τ) a1 fullShare x0 ∗ owns (c : Thread nD τ) a2 fullShare xb
            ∗ owns (c : Thread nD τ) a3 fullShare (k1_pay3 x0 xb)
            ∗ owns (c : Thread nD τ) a4 fullShare y3 ∗ owns (c : Thread nD τ) a5 fullShare y4
            ∗ owns (c : Thread nD τ) a6 fullShare (k1_pay4 x0 xb s)
            ∗ owns (c : Thread nD τ) a7 fullShare (k1_pay5 x0 xb q)) -∗ K ⟨⟩))
      ⊢ wp frame (wpE (defs₀ (F := F)) Variants.none c none) E (cc1_kernel i a1 h1 a2 h2 a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero zeros2 inb_S5000x128_S5000x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  iexists _; isplitr
  swap; · iexact H6
  ipureintro
  sl_unfold_words
  rw [View.read_writes_eq_canon _ _ _ (fun y => ⟨_, List.mem_cons_self .., View.mem_set_unit_zero zeros2 inb_S1x128_S1x128_0_0 y⟩), View.canon_cons_unit_zero zeros2]
  simp only [View.readAt_eq_ld, View.ld_unit_zero (S := S5000x128) zeros2, View.ld_unit_zero (S := S1x128) zeros2, View.readCov_unit_zero (S := S1x128) _ zeros2]

set_option maxHeartbeats 2000000 in
/-- At the last point: the sums are completed, and the mean and the variance stored into the statistic rows. -/
theorem runs_last (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole)
    (hc1 : ¬ isFirst i) (hc2 : isLast i)
    (x0 : Vec F S5000x128 .f32) (xb : Vec F S1x128 .f32) (s q : Vec F S1x128 .f32) (K : PUnit → sProp 𝕄) :
    iprop(owns (c : Thread nD τ) a1 fullShare x0 ∗ owns (c : Thread nD τ) a2 fullShare xb ∗ (∃ d, owns (c : Thread nD τ) a3 fullShare d)
        ∗ (∃ d, owns (c : Thread nD τ) a4 fullShare d) ∗ (∃ d, owns (c : Thread nD τ) a5 fullShare d)
        ∗ owns (c : Thread nD τ) a6 fullShare s ∗ owns (c : Thread nD τ) a7 fullShare q
        ∗ (iprop(owns (c : Thread nD τ) a1 fullShare x0 ∗ owns (c : Thread nD τ) a2 fullShare xb
            ∗ owns (c : Thread nD τ) a3 fullShare (k1_pay3 x0 xb)
            ∗ owns (c : Thread nD τ) a4 fullShare (k1_pay6 (k1_pay4 x0 xb s))
            ∗ owns (c : Thread nD τ) a5 fullShare (k1_pay7 (k1_pay4 x0 xb s) (k1_pay5 x0 xb q))
            ∗ owns (c : Thread nD τ) a6 fullShare (k1_pay4 x0 xb s)
            ∗ owns (c : Thread nD τ) a7 fullShare (k1_pay5 x0 xb q)) -∗ K ⟨⟩))
      ⊢ wp frame (wpE (defs₀ (F := F)) Variants.none c none) E (cc1_kernel i a1 h1 a2 h2 a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero zeros2 inb_S5000x128_S5000x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H3]
  · iexists _; isplitr
    swap; · iexact H3
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H4]
  · iexists _; isplitr
    swap; · iexact H4
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H5]
  · iexists _; isplitr
    swap; · iexact H5
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  iexists _; isplitr
  swap; · iexact H6
  ipureintro
  sl_unfold_words
  rw [View.read_writes_eq_canon _ _ _ (fun y => ⟨_, List.mem_cons_self .., View.mem_set_unit_zero zeros2 inb_S1x128_S1x128_0_0 y⟩), View.canon_cons_unit_zero zeros2]
  simp only [View.readAt_eq_ld, View.ld_unit_zero (S := S5000x128) zeros2, View.ld_unit_zero (S := S1x128) zeros2, View.readCov_unit_zero (S := S1x128) _ zeros2]

end Cert.Kernel.Stats

end
-- ==== Proof.K.StatsRegion.lean ====
/-
  The second kernel region, continued: what the two scratch rows hold after each grid point (the running column
  sums Σ a and Σ a², by recursion on the point), the region's invariant carrying them, the proof data, and the body
  obligation point by point — the first point, the points in between, the last point.
-/
import proofs.«110603_j82575041232956_1_alg».proof.Proof.K.StatsBody

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The running sums -/

/-- What the two scratch rows hold after point `n`: the column sums of a and of a² over the rows of blocks 0 … n —
    zero plus block 0's at the first point, the previous point's plus block n's afterwards. -/
def sums (c : Dev nD) : (n : ℕ) → n < cfg1.N → Vec F S1x128 .f32 × Vec F S1x128 .f32
  | 0, hn => (k1_pay4 (blk V c 0 ⟨0, hn⟩) (blk V c 1 ⟨0, hn⟩) (k1_pay1 (F := F)),
      k1_pay5 (blk V c 0 ⟨0, hn⟩) (blk V c 1 ⟨0, hn⟩) (k1_pay2 (F := F)))
  | n + 1, hn => (k1_pay4 (blk V c 0 ⟨n + 1, hn⟩) (blk V c 1 ⟨n + 1, hn⟩) (sums c n (Nat.lt_of_succ_lt hn)).1,
      k1_pay5 (blk V c 0 ⟨n + 1, hn⟩) (blk V c 1 ⟨n + 1, hn⟩) (sums c n (Nat.lt_of_succ_lt hn)).2)

theorem sums_first (c : Dev nD) (t : Fin cfg1.N) (h : t.val = 0) :
    sums V c t.val t.isLt = (k1_pay4 (blk V c 0 t) (blk V c 1 t) (k1_pay1 (F := F)), k1_pay5 (blk V c 0 t) (blk V c 1 t) (k1_pay2 (F := F))) := by
  obtain ⟨n, hn⟩ := t
  cases n with
  | zero => rfl
  | succ n => exact absurd h (Nat.succ_ne_zero _)

theorem sums_step (c : Dev nD) (t : Fin cfg1.N) (h : t.val ≠ 0) :
    sums V c t.val t.isLt = (k1_pay4 (blk V c 0 t) (blk V c 1 t) (sums V c (t.val - 1) (Nat.lt_of_le_of_lt (Nat.sub_le _ _) t.isLt)).1,
      k1_pay5 (blk V c 0 t) (blk V c 1 t) (sums V c (t.val - 1) (Nat.lt_of_le_of_lt (Nat.sub_le _ _) t.isLt)).2) := by
  obtain ⟨n, hn⟩ := t
  cases n with
  | zero => exact absurd rfl h
  | succ n => rfl

/-! ## The invariant -/

/-- The core's scoped buffers that are neither this region's staging buffers nor its two scratch rows: the other two
    regions' staging buffers, each whole at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

/-- What the launch hands the region, with the two scratch rows singled out. -/
theorem scoped_open (c : Dev nD) : (Pipeline.ΦA spec1 c : sProp 𝕄)
    ⊢ iprop((∃ d, owns (c : Thread nD τ) sumM fullShare d) ∗ (∃ d, owns (c : Thread nD τ) sqM fullShare d) ∗ others c ∗ ∃ r, prngReg c r) := by
  unfold Pipeline.ΦA others; rw [scopedRest1_eq]
  iintro ⟨⟨B1, B2, B3, B4, B5, ⟨%f6, S0⟩, ⟨%f7, S1⟩, B8, B9, B10, B11, B12, B13, B14, B15⟩, Hg⟩
  isplitl [S0]; · iexists f6; rw [owns_whole]; iexact S0
  isplitl [S1]; · iexists f7; rw [owns_whole]; iexact S1
  isplitr [Hg]
  · isplitl [B1]; · iexact B1
    isplitl [B2]; · iexact B2
    isplitl [B3]; · iexact B3
    isplitl [B4]; · iexact B4
    isplitl [B5]; · iexact B5
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- And back: the scratch rows' contents forgotten. -/
theorem scoped_close (c : Dev nD) :
    iprop((∃ d, owns (c : Thread nD τ) sumM fullShare d) ∗ (∃ d, owns (c : Thread nD τ) sqM fullShare d) ∗ others c ∗ ∃ r, prngReg c r)
      ⊢ (Pipeline.ΦA spec1 c : sProp 𝕄) := by
  unfold Pipeline.ΦA others; rw [scopedRest1_eq]
  simp only [owns_whole]
  iintro ⟨⟨%d6, S0⟩, ⟨%d7, S1⟩, ⟨B1, B2, B3, B4, B5, B8, B9, B10, B11, B12, B13, B14, B15⟩, Hg⟩
  isplitr [Hg]
  · isplitl [B1]; · iexact B1
    isplitl [B2]; · iexact B2
    isplitl [B3]; · iexact B3
    isplitl [B4]; · iexact B4
    isplitl [B5]; · iexact B5
    isplitl [S0]; · iexists d6; iexact S0
    isplitl [S1]; · iexists d7; iexact S1
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- The invariant before position `n`: before the first point what the launch hands over (the scratch rows at
    anything); afterwards the scratch rows at the running sums the point before left, the other scoped buffers and the
    generator register as they were. -/
def PhiS (c : Dev nD) : (n : ℕ) → n ≤ cfg1.N → sProp 𝕄
  | 0, _ => Pipeline.ΦA spec1 c
  | n + 1, hn => iprop(owns (c : Thread nD τ) sumM fullShare (sums V c n hn).1 ∗ owns (c : Thread nD τ) sqM fullShare (sums V c n hn).2
      ∗ others c ∗ ∃ r, prngReg c r)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) sumM fullShare (sums V c n hn).1 ∗ owns (c : Thread nD τ) sqM fullShare (sums V c n hn).2
      ∗ others c ∗ ∃ r, prngReg c r) := rfl
theorem PhiS_pos (c : Dev nD) (n : ℕ) (h : n ≤ cfg1.N) (hz : n ≠ 0) :
    PhiS V c n h = iprop(owns (c : Thread nD τ) sumM fullShare (sums V c (n - 1) (by omega)).1
      ∗ owns (c : Thread nD τ) sqM fullShare (sums V c (n - 1) (by omega)).2 ∗ others c ∗ ∃ r, prngReg c r) := by
  cases n with
  | zero => exact absurd rfl hz
  | succ n => rfl

/-! ## The proof data -/

/-- The region's proof data on core `c`: the arrays as the region finds them; after the body the two inputs still at
    their blocks, the a-window at aggregate + bias, the two statistic rows at the mean and the variance of the running
    sums (what matters only where they are stored: the last point); the invariant carrying the running sums. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => k1_pay3 (blk V c 0 t) (blk V c 1 t)
    | ⟨3, _⟩ => k1_pay6 (sums V c t.val t.isLt).1
    | ⟨4, _⟩ => k1_pay7 (sums V c t.val t.isLt).1 (sums V c t.val t.isLt).2
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_agg (c : Dev nD) (t : Fin cfg1.N) : (dat V c).after 0 t = blk V c 0 t := by dsimp only [dat]
theorem after_bias (c : Dev nD) (t : Fin cfg1.N) : (dat V c).after 1 t = blk V c 1 t := by dsimp only [dat]
theorem after_a (c : Dev nD) (t : Fin cfg1.N) : (dat V c).after 2 t = k1_pay3 (blk V c 0 t) (blk V c 1 t) := by dsimp only [dat]
theorem after_mean (c : Dev nD) (t : Fin cfg1.N) : (dat V c).after 3 t = k1_pay6 (sums V c t.val t.isLt).1 := by dsimp only [dat]
theorem after_var (c : Dev nD) (t : Fin cfg1.N) :
    (dat V c).after 4 t = k1_pay7 (sums V c t.val t.isLt).1 (sums V c t.val t.isLt).2 := by dsimp only [dat]

theorem before_agg (c : Dev nD) (t : Fin cfg1.N) (d) : (dat V c).before 0 t d = blk V c 0 t :=
  before_agg_of V (dat V c) (dat_A V c 0) (after_agg V c) t d
theorem before_bias (c : Dev nD) (t : Fin cfg1.N) (d) : (dat V c).before 1 t d = blk V c 1 t :=
  before_bias_of V (dat V c) (dat_A V c 1) (after_bias V c) t d

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns: each window's buffer at what the body left, or — a statistic row at a point that neither
    stores nor writes it back — as it was found. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_bias]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live_agg t]]
  rw [show (dat V c).leavesExact 1 t = owns (c : Thread nD τ) (st1_1 t) fullShare ((dat V c).after 1 t) from by
    unfold Dat.leavesExact; rw [live_bias t]]
  rw [show (dat V c).leavesExact 2 t = owns (c : Thread nD τ) (st1_2 t) fullShare ((dat V c).after 2 t) from by
    unfold Dat.leavesExact; rw [live_a t]]
  rw [after_agg, after_bias, after_a]
  have hN : t.val < 20 := lt_of_lt_of_eq t.isLt (show cfg1.N = 20 from N_1)
  by_cases h0 : t.val % 20 = 0
  · -- the first point
    have hz : t.val = 0 := by omega
    have hF : isFirst (grid1.coords t) := (isFirst_iff t).mpr h0
    have hL : ¬ isLast (grid1.coords t) := fun h => by have := (isLast_iff t).mp h; omega
    rw [Dat.leavesExact_idle (dat V c) 3 t (idle_mean t hL) (noFlush_mean t hL),
      Dat.leavesExact_idle (dat V c) 4 t (idle_var t hL) (noFlush_var t hL)]
    rw [sums_first V c t hz]; dsimp only
    rw [PhiS_castSucc V c t, PhiS_zero V c _ _ hz]
    iintro ⟨HΦ, Ho, ⟨%d0, H0⟩, ⟨%d1, H1⟩, ⟨%d2, H2⟩, ⟨%d3, H3⟩, ⟨%d4, H4⟩⟩
    ihave HΦ' := (scoped_open c) $$ HΦ
    icases HΦ' with ⟨HS0, HS1, Hoth, Hg⟩
    iapply (runs_first c Set.univ (grid1.coords t) _ _ _ _ _ _ _ _ _ _ _ _ _ _ hF hL (blk V c 0 t) (blk V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexists d3; iexact H3
    iexists d4; iexact H4
  · have hz : t.val ≠ 0 := fun h => h0 (by rw [h])
    have hF : ¬ isFirst (grid1.coords t) := fun h => h0 ((isFirst_iff t).mp h)
    rw [sums_step V c t hz]; dsimp only
    rw [PhiS_castSucc V c t, PhiS_pos V c _ _ hz]
    by_cases h1 : t.val % 20 = 19
    · -- the last point
      have hL : isLast (grid1.coords t) := (isLast_iff t).mpr h1
      rw [show (dat V c).leavesExact 3 t = owns (c : Thread nD τ) (st1_3 t) fullShare ((dat V c).after 3 t) from by
        unfold Dat.leavesExact; rw [live_mean t hL]]
      rw [show (dat V c).leavesExact 4 t = owns (c : Thread nD τ) (st1_4 t) fullShare ((dat V c).after 4 t) from by
        unfold Dat.leavesExact; rw [live_var t hL]]
      rw [after_mean, after_var, sums_step V c t hz]; dsimp only
      iintro ⟨⟨HS0, HS1, Hoth, Hg⟩, Ho, ⟨%d0, H0⟩, ⟨%d1, H1⟩, ⟨%d2, H2⟩, ⟨%d3, H3⟩, ⟨%d4, H4⟩⟩
      iapply (runs_last c Set.univ (grid1.coords t) _ _ _ _ _ _ _ _ _ _ _ _ _ _ hF hL (blk V c 0 t) (blk V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · -- a point in between
      have hL : ¬ isLast (grid1.coords t) := fun h => h1 ((isLast_iff t).mp h)
      rw [Dat.leavesExact_idle (dat V c) 3 t (idle_mean t hL) (noFlush_mean t hL),
        Dat.leavesExact_idle (dat V c) 4 t (idle_var t hL) (noFlush_var t hL)]
      iintro ⟨⟨HS0, HS1, Hoth, Hg⟩, Ho, ⟨%d0, H0⟩, ⟨%d1, H1⟩, ⟨%d2, H2⟩, ⟨%d3, H3⟩, ⟨%d4, H4⟩⟩
      iapply (runs_middle c Set.univ (grid1.coords t) _ _ _ _ _ _ _ _ _ _ _ _ _ _ hF hL (blk V c 0 t) (blk V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexists d3; iexact H3
      iexists d4; iexact H4

/-- The body obligation at every point. -/
theorem body_obligation (c : Dev nD) : BodyObligation (dat (F := F) V c) (defs₀ (F := F)) Variants.none () Set.univ := fun t => by
  rw [bigSep_W1, bigSep_W1]
  exact body_at V c t

/-- What the launch hands the region is the invariant before the first point; -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- after the last point the invariant gives it back, the running sums' names forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 20 := N_1; omega)]
  iintro ⟨HS0, HS1, Hoth, Hg⟩
  iapply (scoped_close c)
  isplitl [HS0]; · iexists _; iexact HS0
  isplitl [HS1]; · iexists _; iexact HS1
  isplitl [Hoth]; · iexact Hoth
  iexact Hg

end Cert.Kernel.Stats

end
-- ==== Proof.K.Normalize.lean ====
/-
  The third kernel region: y = max(γ · (a − μ) · (σ² + ε)^(−1/2) + β, 0), one block of 5000 rows of a per grid
  point against the four rows μ, σ², γ, β (each 1×128, fetched once and resident). At a grid point the body leaves
  in the output window's buffer that expression of the five loaded blocks — named through the body's one payload at
  any float instance, never computed here.
-/
import proofs.«110603_j82575041232956_1_alg».proof.Proof.Gen.Kernel.Launch
import proofs.«110603_j82575041232956_1_alg».proof.Proof.Gen.Kernel.Skeleton
import proofs.«110603_j82575041232956_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Normalize

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-- The block of window `w` at grid point `t`, read off the window's array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the point fetched it or an earlier one did: the rows of a, fetched at every point. -/
theorem before_a_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the row of means, fetched once and resident; -/
theorem before_mean_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- for the row of variances; -/
theorem before_var_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- for the scales; -/
theorem before_gamma_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- and for the shifts. -/
theorem before_beta_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The whole of a 5000×128 buffer and the whole of a 1×128 one: the only rectangles the body touches. -/
abbrev rowsRect : Rect S5000x128 := Rect.unit (s := S5000x128) ![0, 0] S5000x128.size inb_S5000x128_S5000x128_0_0
abbrev rowRect : Rect S1x128 := Rect.unit (s := S1x128) ![0, 0] S1x128.size inb_S1x128_S1x128_0_0

/-- What the body leaves in the output window's buffer: its one store, of the normalised and rectified block. -/
def normalized (x0 : Vec F S5000x128 .f32) (x1 x2 x3 x4 : Vec F S1x128 .f32) : Vec F S5000x128 .f32 :=
  View.canon [⟨rowsRect, k2_pay1 (View.ld x0 rowsRect) (View.ld x1 rowRect) (View.ld x2 rowRect) (View.ld x3 rowRect) (View.ld x4 rowRect)⟩]

/-- The one store covers the buffer. -/
theorem normalized_cover (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

set_option maxHeartbeats 1000000 in
/-- The body on whole buffers: the five inputs at known contents, the output at anything; it returns the inputs
    untouched and the output at `normalized` of them. -/
theorem body_runs (c : Dev nD) (E : Set ℕ) (i : grid2.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S5000x128 .f32) (h6 : a6.IsWhole)
    (x0 : Vec F S5000x128 .f32) (x1 x2 x3 x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (normalized x0 x1 x2 x3 x4)) -∗ K ⟨⟩))
      ⊢ wp frame (wpE (defs₀ (F := F)) Variants.none c none) E (cc2__bn_norm_kernel i a1 h1 a2 h2 a3 h3 a4 h4 a5 h5 a6 h6) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (normalized_cover _)

/-- The region's proof data on core `c`: the arrays as the region finds them; after the body each input buffer
    still at its block and the output buffer at the normalised block; the invariant only the buffers and register
    the body never names; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => normalized (blk V c 0 t) (blk V c 1 t) (blk V c 2 t) (blk V c 3 t) (blk V c 4 t)
  Φ _ := Pipeline.ΦA spec2 c
  q _ := fullShare
  owed _ := 0

theorem dat_A (c : Dev nD) (w : Fin cfg2.W) : (dat V c).A w = V c (Pipeline.arrRef spec2 w) := by
  dsimp only [dat]
theorem after_a (c : Dev nD) (t : Fin cfg2.N) : (dat V c).after 0 t = blk V c 0 t := by dsimp only [dat]
theorem after_mean (c : Dev nD) (t : Fin cfg2.N) : (dat V c).after 1 t = blk V c 1 t := by dsimp only [dat]
theorem after_var (c : Dev nD) (t : Fin cfg2.N) : (dat V c).after 2 t = blk V c 2 t := by dsimp only [dat]
theorem after_gamma (c : Dev nD) (t : Fin cfg2.N) : (dat V c).after 3 t = blk V c 3 t := by dsimp only [dat]
theorem after_beta (c : Dev nD) (t : Fin cfg2.N) : (dat V c).after 4 t = blk V c 4 t := by dsimp only [dat]
theorem after_y (c : Dev nD) (t : Fin cfg2.N) :
    (dat V c).after 5 t = normalized (blk V c 0 t) (blk V c 1 t) (blk V c 2 t) (blk V c 3 t) (blk V c 4 t) := by dsimp only [dat]

theorem before_a (c : Dev nD) (t : Fin cfg2.N) (d) : (dat V c).before 0 t d = blk V c 0 t :=
  before_a_of V (dat V c) (dat_A V c 0) (after_a V c) t d
theorem before_mean (c : Dev nD) (t : Fin cfg2.N) (d) : (dat V c).before 1 t d = blk V c 1 t :=
  before_mean_of V (dat V c) (dat_A V c 1) (after_mean V c) t d
theorem before_var (c : Dev nD) (t : Fin cfg2.N) (d) : (dat V c).before 2 t d = blk V c 2 t :=
  before_var_of V (dat V c) (dat_A V c 2) (after_var V c) t d
theorem before_gamma (c : Dev nD) (t : Fin cfg2.N) (d) : (dat V c).before 3 t d = blk V c 3 t :=
  before_gamma_of V (dat V c) (dat_A V c 3) (after_gamma V c) t d
theorem before_beta (c : Dev nD) (t : Fin cfg2.N) (d) : (dat V c).before 4 t d = blk V c 4 t :=
  before_beta_of V (dat V c) (dat_A V c 4) (after_beta V c) t d

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_a, before_mean, before_var, before_gamma, before_beta]
  rw [show (dat V c).Φ t.succ = (dat V c).Φ t.castSucc from rfl,
    show (dat V c).owesAt () t.succ = (dat V c).owesAt () t.castSucc from rfl,
    after_a, after_mean, after_var, after_gamma, after_beta, after_y]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation (c : Dev nD) : BodyObligation (dat (F := F) V c) (defs₀ (F := F)) Variants.none () Set.univ := fun t => by
  rw [bigSep_W2, bigSep_W2]
  exact body_at V c t

end Cert.Kernel.Normalize

end
-- ==== Proof.K.Run.lean ====
/-
  The whole program: host operations, the x·W region, host operations (the gathers, the edge scaling and the
  scatter-add), the statistics region, the normalisation region. What every unscoped buffer holds at each boundary
  between two of these is a fold from the launch memory — a host stretch applies its operations, a region replaces its
  output arrays by what its write-backs leave — and every weakly fair execution of @main ends with every unscoped
  buffer at the last fold. The argument arrays come through the fold unchanged; the result array is the last region's
  output read off its proof data.
-/
import proofs.«110603_j82575041232956_1_alg».proof.Proof.K.Project
import proofs.«110603_j82575041232956_1_alg».proof.Proof.K.StatsRegion
import proofs.«110603_j82575041232956_1_alg».proof.Proof.K.Normalize
import proofs.«110603_j82575041232956_1_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- The core's buffers at launch, -/
abbrev W0 : Dev nD → Valuation τ sig (Elt F) := fun c b => m (c, b)
/-- after the first host stretch (the edge lists with self-loops, the degrees, the edge weights), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its windows' arrays at what the write-backs leave, every other buffer as entered. -/
def W2 (c : Dev nD) : Valuation τ sig (Elt F) :=
  Pipeline.withArrays spec0 c (W1 m c) fun w => (Project.dat (V1 m) c).arrAt w cfg0.N
theorem W2_arr (c : Dev nD) (w : Fin cfg0.W) :
    W2 m c (Proc.devRef .tc (Pipeline.arrRef spec0 w)) = (Project.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m c b
theorem arrs0 (c : Dev nD) (w : Fin cfg0.W) : (Project.dat (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (gather, scale, scatter-add; the three rows reshaped). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its windows' arrays at what the write-backs leave, every other buffer as entered. -/
def W4 (c : Dev nD) : Valuation τ sig (Elt F) :=
  Pipeline.withArrays spec1 c (W3 m c) fun w => (Stats.dat (V3 m) c).arrAt w cfg1.N
theorem W4_arr (c : Dev nD) (w : Fin cfg1.W) :
    W4 m c (Proc.devRef .tc (Pipeline.arrRef spec1 w)) = (Stats.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m c b
theorem arrs1 (c : Dev nD) (w : Fin cfg1.W) : (Stats.dat (V3 m) c).arrAt w cfg1.N = V4 m c (Pipeline.arrRef spec1 w) :=
  (W4_arr m c w).symm
theorem rest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After region 2: its windows' arrays at what the write-backs leave, every other buffer as entered. -/
def W5 (c : Dev nD) : Valuation τ sig (Elt F) :=
  Pipeline.withArrays spec2 c (W4 m c) fun w => (Normalize.dat (V4 m) c).arrAt w cfg2.N
theorem W5_arr (c : Dev nD) (w : Fin cfg2.W) :
    W5 m c (Proc.devRef .tc (Pipeline.arrRef spec2 w)) = (Normalize.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the core's references. -/
abbrev V5 : (c : Dev nD) → (b : Ref sig .tc) → Buf (Elt F) ((c : Thread nD τ).loc b) := fun c b => W5 m c b
theorem arrs2 (c : Dev nD) (w : Fin cfg2.W) : (Normalize.dat (V4 m) c).arrAt w cfg2.N = V5 m c (Pipeline.arrRef spec2 w) :=
  (W5_arr m c w).symm
theorem rest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

/-- `main_arg0` reaches the end as launched: no host operation writes it and no region's write-back touches it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Project.dat (V1 m) c).arrAt_in 0 rfl _).trans (Project.dat_A (V1 m) c 0))
    _ = W0 m c (Proc.devRef .tc main_arg0) := StableHlo.after_of_writes_sub hostOps0 _ hostOps0_writes (by decide)
    _ = m ((c : Thread nD τ).loc main_arg0) := rfl

/-- `main_arg1` reaches the end as launched: no host operation writes it and no region's write-back touches it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((Project.dat (V1 m) c).arrAt_in 1 rfl _).trans (Project.dat_A (V1 m) c 1))
    _ = W0 m c (Proc.devRef .tc main_arg1) := StableHlo.after_of_writes_sub hostOps0 _ hostOps0_writes (by decide)
    _ = m ((c : Thread nD τ).loc main_arg1) := rfl

/-- `main_arg2` reaches the end as launched: no host operation writes it and no region's write-back touches it. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it and no region's write-back touches it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it and no region's write-back touches it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it and no region's write-back touches it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The proof data family and what rides along -/

/-- No region has a prefetched table. -/
abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => Project.dat (V1 m) c
  | ⟨1, _⟩ => fun c => Stats.dat (V3 m) c
  | ⟨2, _⟩ => fun c => Normalize.dat (V4 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last fold, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment of @main: entered with every unscoped buffer at `W1`, left with them at `W2`. Its
    windows' arrays are split out of the unscoped buffers at entry and put back at what the write-backs left at exit; the
    generator register goes into the region's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W3`, left with them at `W4`. Its
    windows' arrays are split out of the unscoped buffers at entry and put back at what the write-backs left at exit; the
    generator register goes into the region's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stats.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (Stats.Phi_in (V3 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Stats.Phi_out (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at `W4`, left with them at `W5`. Its
    windows' arrays are split out of the unscoped buffers at entry and put back at what the write-backs left at exit; the
    generator register goes into the region's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Normalize.body_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (arrs2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run m ρ)

end Cert.Kernel.Whole

end
-- ==== Proof.KI.Project.lean ====
/-
  The first kernel region: h = x · W, one block of 5000 rows of x per grid point against the whole of W.
  At a grid point t the body is handed rows 5000·t … 5000·t + 4999 of x and all of W, and leaves in the
  output window's buffer the matrix product of the two (both narrowed to bf16 first, which an exact
  instance reads as the identity), accumulated into zero. Stated at any float instance: what the buffers
  hold is named through the body's one payload, never computed.
-/
import proofs.«110603_j82575041232956_1_alg».proof.Proof.Gen.KernelIdeal.Launch
import proofs.«110603_j82575041232956_1_alg».proof.Proof.Gen.KernelIdeal.Skeleton
import proofs.«110603_j82575041232956_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-- The block of window `w` at grid point `t`, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetched it or an earlier one did
    (the block index has not moved since): the rows of x, fetched at every point. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for W, fetched once at the first point and resident afterwards. -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole of a 5000×128 buffer, and the whole of a 128×128 one: the only rectangles the body touches. -/
abbrev rowsRect : Rect S5000x128 := Rect.unit (s := S5000x128) ![0, 0] S5000x128.size inb_S5000x128_S5000x128_0_0
abbrev wRect : Rect S128x128 := Rect.unit (s := S128x128) ![0, 0] S128x128.size inb_S128x128_S128x128_0_0

/-- What the body leaves in the output window's buffer: its one store, of the product of the two loaded blocks. -/
def product (x0 : Vec F S5000x128 .f32) (x1 : Vec F S128x128 .f32) : Vec F S5000x128 .f32 :=
  View.canon [⟨rowsRect, k0_pay1 (View.ld x0 rowsRect) (View.ld x1 wRect)⟩]

/-- The one store covers the buffer. -/
theorem product_cover (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

set_option maxHeartbeats 1000000 in
/-- The body on whole buffers: the two inputs at known contents, the output at anything; it returns the inputs
    untouched and the output at `product` of them. -/
theorem body_runs (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x0 : Vec F S5000x128 .f32) (x1 : Vec F S128x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (product x0 x1)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core `c`: the arrays as the region finds them; after the body each input buffer
    still at its block and the output buffer at the product of the two blocks; the invariant only the buffers and
    register the body never names; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => product (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_h (c : Dev nD) (t : Fin cfg0.N) : (dat V c).after 2 t = product (blk V c 0 t) (blk V c 1 t) := by dsimp only [dat]

theorem before_x (c : Dev nD) (t : Fin cfg0.N) (d) : (dat V c).before 0 t d = blk V c 0 t :=
  before_x_of V (dat V c) (dat_A V c 0) (after_x V c) t d
theorem before_w (c : Dev nD) (t : Fin cfg0.N) (d) : (dat V c).before 1 t d = blk V c 1 t :=
  before_w_of V (dat V c) (dat_A V c 1) (after_w V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_h]
  iintro ⟨HΦ, Ho, ⟨%d0, H0⟩, ⟨%d1, H1⟩, ⟨%d2, H2⟩⟩
  iapply (body_runs c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat (F := F) V c) (defs₀ (F := F)) Variants.none () Set.univ := fun t => by
  rw [bigSep_W0, bigSep_W0]
  exact body_at V c t

end Cert.KernelIdeal.Project

end
-- ==== Proof.KI.StatsBody.lean ====
/-
  The second kernel region: a = agg + b, block by block, with the column sums Σ a and Σ a² carried in two
  1×128 scratch rows across the twenty grid points, and — at the last point only — the mean Σa / n and the
  variance Σa² / n − mean² stored into two 1×128 output rows.
  The scratch rows are zeroed at the first point, so after point t they hold the sums over the rows of blocks
  0 … t; this is stated by recursion on the point and kept in the region's invariant. The two statistic rows are
  left untouched (and not written back) at every point but the last. Stated at any float instance through the
  body's payload names.
-/
import proofs.«110603_j82575041232956_1_alg».proof.Proof.Gen.KernelIdeal.Launch
import proofs.«110603_j82575041232956_1_alg».proof.Proof.Gen.KernelIdeal.Skeleton
import proofs.«110603_j82575041232956_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## Which points zero the sums, which store the statistics -/

/-- The body's first conditional: the grid coordinate is 0. -/
abbrev isFirst (i : grid1.Coords) : Prop := (Scalar.cmpi .ne (Scalar.extui (Scalar.cmpi .eq (BitVec.ofNat 32 (i 0).val) 0#32)) 0#32) = 1#1
/-- The body's second conditional: the grid coordinate is 19. -/
abbrev isLast (i : grid1.Coords) : Prop := k1_cond2 i = 1#1
theorem isFirst_iff : ∀ t : Fin cfg1.N, isFirst (grid1.coords t) ↔ t.val % 20 = 0 :=
  (by decide +kernel : ∀ t : Fin grid1.N, isFirst (grid1.coords t) ↔ t.val % 20 = 0)
theorem isLast_iff : ∀ t : Fin cfg1.N, isLast (grid1.coords t) ↔ t.val % 20 = 19 :=
  (by decide +kernel : ∀ t : Fin grid1.N, isLast (grid1.coords t) ↔ t.val % 20 = 19)

/-- The block windows are never idle; the two statistic rows are idle, and not written back, except at the last point. -/
theorem live_agg : ∀ t : Fin cfg1.N, cfg1.idle 0 (grid1.coords t) = false := by decide +kernel
theorem live_bias : ∀ t : Fin cfg1.N, cfg1.idle 1 (grid1.coords t) = false := by decide +kernel
theorem live_a : ∀ t : Fin cfg1.N, cfg1.idle 2 (grid1.coords t) = false := by decide +kernel
theorem idle_mean : ∀ t : Fin cfg1.N, ¬isLast (grid1.coords t) → cfg1.idle 3 (grid1.coords t) = true := by decide +kernel
theorem idle_var : ∀ t : Fin cfg1.N, ¬isLast (grid1.coords t) → cfg1.idle 4 (grid1.coords t) = true := by decide +kernel
theorem noFlush_mean : ∀ t : Fin cfg1.N, ¬isLast (grid1.coords t) → (cfg1.win 3).flush t = false := by decide +kernel
theorem noFlush_var : ∀ t : Fin cfg1.N, ¬isLast (grid1.coords t) → (cfg1.win 4).flush t = false := by decide +kernel
theorem live_mean : ∀ t : Fin cfg1.N, isLast (grid1.coords t) → cfg1.idle 3 (grid1.coords t) = false := by decide +kernel
theorem live_var : ∀ t : Fin cfg1.N, isLast (grid1.coords t) → cfg1.idle 4 (grid1.coords t) = false := by decide +kernel

/-! ## The blocks -/

/-- The block of window `w` at grid point `t`, read off the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the point fetched it or an earlier one did: the rows of the aggregate, fetched at every point, -/
theorem before_agg_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- and the bias row, fetched once and resident. -/
theorem before_bias_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The offsets of every access in the body are zero: each touches a whole buffer. -/
theorem zeros2 : (![0, 0] : Fin 2 → ℕ) = fun _ => 0 := by funext a; fin_cases a <;> rfl

/-- The two scratch rows the kernel carries between points. -/
abbrev sumM : Memref sig .tc .vmem S1x128 .f32 := Memref.whole cc1_scratch0
abbrev sqM : Memref sig .tc .vmem S1x128 .f32 := Memref.whole cc1_scratch1

/-! ## The body, case by case, on whole buffers -/

set_option maxHeartbeats 2000000 in
/-- At the first point: the sums are zeroed, then the block's column sums added; the statistic rows are left as found. -/
theorem runs_first (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole)
    (hc1 : isFirst i) (hc2 : ¬ isLast i)
    (x0 : Vec F S5000x128 .f32) (xb : Vec F S1x128 .f32) (y3 y4 : Vec F S1x128 .f32) (K : PUnit → sProp 𝕄) :
    iprop(owns (c : Thread nD τ) a1 fullShare x0 ∗ owns (c : Thread nD τ) a2 fullShare xb ∗ (∃ d, owns (c : Thread nD τ) a3 fullShare d)
        ∗ owns (c : Thread nD τ) a4 fullShare y3 ∗ owns (c : Thread nD τ) a5 fullShare y4
        ∗ (∃ d, owns (c : Thread nD τ) a6 fullShare d) ∗ (∃ d, owns (c : Thread nD τ) a7 fullShare d)
        ∗ (iprop(owns (c : Thread nD τ) a1 fullShare x0 ∗ owns (c : Thread nD τ) a2 fullShare xb
            ∗ owns (c : Thread nD τ) a3 fullShare (k1_pay3 x0 xb)
            ∗ owns (c : Thread nD τ) a4 fullShare y3 ∗ owns (c : Thread nD τ) a5 fullShare y4
            ∗ owns (c : Thread nD τ) a6 fullShare (k1_pay4 x0 xb (k1_pay1 (F := F)))
            ∗ owns (c : Thread nD τ) a7 fullShare (k1_pay5 x0 xb (k1_pay2 (F := F)))) -∗ K ⟨⟩))
      ⊢ wp frame (wpE (defs₀ (F := F)) Variants.none c none) E (cc1_kernel i a1 h1 a2 h2 a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero zeros2 inb_S5000x128_S5000x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  iexists _; isplitr
  swap; · iexact H6
  ipureintro
  sl_unfold_words
  rw [View.read_writes_eq_canon _ _ _ (fun y => ⟨_, List.mem_cons_self .., View.mem_set_unit_zero zeros2 inb_S1x128_S1x128_0_0 y⟩), View.canon_cons_unit_zero zeros2]
  simp only [View.readAt_eq_ld, View.ld_unit_zero (S := S5000x128) zeros2, View.ld_unit_zero (S := S1x128) zeros2, View.readCov_unit_zero (S := S1x128) _ zeros2]

set_option maxHeartbeats 2000000 in
/-- At a point that is neither first nor last: the block's column sums are added to the carried sums. -/
theorem runs_middle (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole)
    (hc1 : ¬ isFirst i) (hc2 : ¬ isLast i)
    (x0 : Vec F S5000x128 .f32) (xb : Vec F S1x128 .f32) (y3 y4 s q : Vec F S1x128 .f32) (K : PUnit → sProp 𝕄) :
    iprop(owns (c : Thread nD τ) a1 fullShare x0 ∗ owns (c : Thread nD τ) a2 fullShare xb ∗ (∃ d, owns (c : Thread nD τ) a3 fullShare d)
        ∗ owns (c : Thread nD τ) a4 fullShare y3 ∗ owns (c : Thread nD τ) a5 fullShare y4
        ∗ owns (c : Thread nD τ) a6 fullShare s ∗ owns (c : Thread nD τ) a7 fullShare q
        ∗ (iprop(owns (c : Thread nD τ) a1 fullShare x0 ∗ owns (c : Thread nD τ) a2 fullShare xb
            ∗ owns (c : Thread nD τ) a3 fullShare (k1_pay3 x0 xb)
            ∗ owns (c : Thread nD τ) a4 fullShare y3 ∗ owns (c : Thread nD τ) a5 fullShare y4
            ∗ owns (c : Thread nD τ) a6 fullShare (k1_pay4 x0 xb s)
            ∗ owns (c : Thread nD τ) a7 fullShare (k1_pay5 x0 xb q)) -∗ K ⟨⟩))
      ⊢ wp frame (wpE (defs₀ (F := F)) Variants.none c none) E (cc1_kernel i a1 h1 a2 h2 a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero zeros2 inb_S5000x128_S5000x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  iexists _; isplitr
  swap; · iexact H6
  ipureintro
  sl_unfold_words
  rw [View.read_writes_eq_canon _ _ _ (fun y => ⟨_, List.mem_cons_self .., View.mem_set_unit_zero zeros2 inb_S1x128_S1x128_0_0 y⟩), View.canon_cons_unit_zero zeros2]
  simp only [View.readAt_eq_ld, View.ld_unit_zero (S := S5000x128) zeros2, View.ld_unit_zero (S := S1x128) zeros2, View.readCov_unit_zero (S := S1x128) _ zeros2]

set_option maxHeartbeats 2000000 in
/-- At the last point: the sums are completed, and the mean and the variance stored into the statistic rows. -/
theorem runs_last (c : Dev nD) (E : Set ℕ) (i : grid1.Coords)
    (a1 : Memref sig .tc .vmem S5000x128 .f32) (h1 : a1.IsWhole) (a2 : Memref sig .tc .vmem S1x128 .f32) (h2 : a2.IsWhole)
    (a3 : Memref sig .tc .vmem S5000x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole)
    (hc1 : ¬ isFirst i) (hc2 : isLast i)
    (x0 : Vec F S5000x128 .f32) (xb : Vec F S1x128 .f32) (s q : Vec F S1x128 .f32) (K : PUnit → sProp 𝕄) :
    iprop(owns (c : Thread nD τ) a1 fullShare x0 ∗ owns (c : Thread nD τ) a2 fullShare xb ∗ (∃ d, owns (c : Thread nD τ) a3 fullShare d)
        ∗ (∃ d, owns (c : Thread nD τ) a4 fullShare d) ∗ (∃ d, owns (c : Thread nD τ) a5 fullShare d)
        ∗ owns (c : Thread nD τ) a6 fullShare s ∗ owns (c : Thread nD τ) a7 fullShare q
        ∗ (iprop(owns (c : Thread nD τ) a1 fullShare x0 ∗ owns (c : Thread nD τ) a2 fullShare xb
            ∗ owns (c : Thread nD τ) a3 fullShare (k1_pay3 x0 xb)
            ∗ owns (c : Thread nD τ) a4 fullShare (k1_pay6 (k1_pay4 x0 xb s))
            ∗ owns (c : Thread nD τ) a5 fullShare (k1_pay7 (k1_pay4 x0 xb s) (k1_pay5 x0 xb q))
            ∗ owns (c : Thread nD τ) a6 fullShare (k1_pay4 x0 xb s)
            ∗ owns (c : Thread nD τ) a7 fullShare (k1_pay5 x0 xb q)) -∗ K ⟨⟩))
      ⊢ wp frame (wpE (defs₀ (F := F)) Variants.none c none) E (cc1_kernel i a1 h1 a2 h2 a3 h3 a4 h4 a5 h5 a6 h6 a7 h7) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero zeros2 inb_S5000x128_S5000x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H3]
  · iexists _; isplitr
    swap; · iexact H3
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H4]
  · iexists _; isplitr
    swap; · iexact H4
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  isplitl [H5]
  · iexists _; isplitr
    swap; · iexact H5
    ipureintro
    sl_unfold_words
    rw [View.read_writes_eq_canon _ _ _ (fun y => ⟨_, List.mem_cons_self .., View.mem_set_unit_zero zeros2 inb_S1x128_S1x128_0_0 y⟩), View.canon_cons_unit_zero zeros2]
    simp only [View.readAt_eq_ld, View.ld_unit_zero (S := S5000x128) zeros2, View.ld_unit_zero (S := S1x128) zeros2, View.readCov_unit_zero (S := S1x128) _ zeros2]
  iexists _; isplitr
  swap; · iexact H6
  ipureintro
  sl_unfold_words
  rw [View.read_writes_eq_canon _ _ _ (fun y => ⟨_, List.mem_cons_self .., View.mem_set_unit_zero zeros2 inb_S1x128_S1x128_0_0 y⟩), View.canon_cons_unit_zero zeros2]
  simp only [View.readAt_eq_ld, View.ld_unit_zero (S := S5000x128) zeros2, View.ld_unit_zero (S := S1x128) zeros2, View.readCov_unit_zero (S := S1x128) _ zeros2]

end Cert.KernelIdeal.Stats

end
-- ==== Proof.KI.StatsRegion.lean ====
/-
  The second kernel region, continued: what the two scratch rows hold after each grid point (the running column
  sums Σ a and Σ a², by recursion on the point), the region's invariant carrying them, the proof data, and the body
  obligation point by point — the first point, the points in between, the last point.
-/
import proofs.«110603_j82575041232956_1_alg».proof.Proof.KI.StatsBody

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The running sums -/

/-- What the two scratch rows hold after point `n`: the column sums of a and of a² over the rows of blocks 0 … n —
    zero plus block 0's at the first point, the previous point's plus block n's afterwards. -/
def sums (c : Dev nD) : (n : ℕ) → n < cfg1.N → Vec F S1x128 .f32 × Vec F S1x128 .f32
  | 0, hn => (k1_pay4 (blk V c 0 ⟨0, hn⟩) (blk V c 1 ⟨0, hn⟩) (k1_pay1 (F := F)),
      k1_pay5 (blk V c 0 ⟨0, hn⟩) (blk V c 1 ⟨0, hn⟩) (k1_pay2 (F := F)))
  | n + 1, hn => (k1_pay4 (blk V c 0 ⟨n + 1, hn⟩) (blk V c 1 ⟨n + 1, hn⟩) (sums c n (Nat.lt_of_succ_lt hn)).1,
      k1_pay5 (blk V c 0 ⟨n + 1, hn⟩) (blk V c 1 ⟨n + 1, hn⟩) (sums c n (Nat.lt_of_succ_lt hn)).2)

theorem sums_first (c : Dev nD) (t : Fin cfg1.N) (h : t.val = 0) :
    sums V c t.val t.isLt = (k1_pay4 (blk V c 0 t) (blk V c 1 t) (k1_pay1 (F := F)), k1_pay5 (blk V c 0 t) (blk V c 1 t) (k1_pay2 (F := F))) := by
  obtain ⟨n, hn⟩ := t
  cases n with
  | zero => rfl
  | succ n => exact absurd h (Nat.succ_ne_zero _)

theorem sums_step (c : Dev nD) (t : Fin cfg1.N) (h : t.val ≠ 0) :
    sums V c t.val t.isLt = (k1_pay4 (blk V c 0 t) (blk V c 1 t) (sums V c (t.val - 1) (Nat.lt_of_le_of_lt (Nat.sub_le _ _) t.isLt)).1,
      k1_pay5 (blk V c 0 t) (blk V c 1 t) (sums V c (t.val - 1) (Nat.lt_of_le_of_lt (Nat.sub_le _ _) t.isLt)).2) := by
  obtain ⟨n, hn⟩ := t
  cases n with
  | zero => exact absurd rfl h
  | succ n => rfl

/-! ## The invariant -/

/-- The core's scoped buffers that are neither this region's staging buffers nor its two scratch rows: the other two
    regions' staging buffers, each whole at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

/-- What the launch hands the region, with the two scratch rows singled out. -/
theorem scoped_open (c : Dev nD) : (Pipeline.ΦA spec1 c : sProp 𝕄)
    ⊢ iprop((∃ d, owns (c : Thread nD τ) sumM fullShare d) ∗ (∃ d, owns (c : Thread nD τ) sqM fullShare d) ∗ others c ∗ ∃ r, prngReg c r) := by
  unfold Pipeline.ΦA others; rw [scopedRest1_eq]
  iintro ⟨⟨B1, B2, B3, B4, B5, ⟨%f6, S0⟩, ⟨%f7, S1⟩, B8, B9, B10, B11, B12, B13, B14, B15⟩, Hg⟩
  isplitl [S0]; · iexists f6; rw [owns_whole]; iexact S0
  isplitl [S1]; · iexists f7; rw [owns_whole]; iexact S1
  isplitr [Hg]
  · isplitl [B1]; · iexact B1
    isplitl [B2]; · iexact B2
    isplitl [B3]; · iexact B3
    isplitl [B4]; · iexact B4
    isplitl [B5]; · iexact B5
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- And back: the scratch rows' contents forgotten. -/
theorem scoped_close (c : Dev nD) :
    iprop((∃ d, owns (c : Thread nD τ) sumM fullShare d) ∗ (∃ d, owns (c : Thread nD τ) sqM fullShare d) ∗ others c ∗ ∃ r, prngReg c r)
      ⊢ (Pipeline.ΦA spec1 c : sProp 𝕄) := by
  unfold Pipeline.ΦA others; rw [scopedRest1_eq]
  simp only [owns_whole]
  iintro ⟨⟨%d6, S0⟩, ⟨%d7, S1⟩, ⟨B1, B2, B3, B4, B5, B8, B9, B10, B11, B12, B13, B14, B15⟩, Hg⟩
  isplitr [Hg]
  · isplitl [B1]; · iexact B1
    isplitl [B2]; · iexact B2
    isplitl [B3]; · iexact B3
    isplitl [B4]; · iexact B4
    isplitl [B5]; · iexact B5
    isplitl [S0]; · iexists d6; iexact S0
    isplitl [S1]; · iexists d7; iexact S1
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- The invariant before position `n`: before the first point what the launch hands over (the scratch rows at
    anything); afterwards the scratch rows at the running sums the point before left, the other scoped buffers and the
    generator register as they were. -/
def PhiS (c : Dev nD) : (n : ℕ) → n ≤ cfg1.N → sProp 𝕄
  | 0, _ => Pipeline.ΦA spec1 c
  | n + 1, hn => iprop(owns (c : Thread nD τ) sumM fullShare (sums V c n hn).1 ∗ owns (c : Thread nD τ) sqM fullShare (sums V c n hn).2
      ∗ others c ∗ ∃ r, prngReg c r)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) sumM fullShare (sums V c n hn).1 ∗ owns (c : Thread nD τ) sqM fullShare (sums V c n hn).2
      ∗ others c ∗ ∃ r, prngReg c r) := rfl
theorem PhiS_pos (c : Dev nD) (n : ℕ) (h : n ≤ cfg1.N) (hz : n ≠ 0) :
    PhiS V c n h = iprop(owns (c : Thread nD τ) sumM fullShare (sums V c (n - 1) (by omega)).1
      ∗ owns (c : Thread nD τ) sqM fullShare (sums V c (n - 1) (by omega)).2 ∗ others c ∗ ∃ r, prngReg c r) := by
  cases n with
  | zero => exact absurd rfl hz
  | succ n => rfl

/-! ## The proof data -/

/-- The region's proof data on core `c`: the arrays as the region finds them; after the body the two inputs still at
    their blocks, the a-window at aggregate + bias, the two statistic rows at the mean and the variance of the running
    sums (what matters only where they are stored: the last point); the invariant carrying the running sums. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => k1_pay3 (blk V c 0 t) (blk V c 1 t)
    | ⟨3, _⟩ => k1_pay6 (sums V c t.val t.isLt).1
    | ⟨4, _⟩ => k1_pay7 (sums V c t.val t.isLt).1 (sums V c t.val t.isLt).2
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_agg (c : Dev nD) (t : Fin cfg1.N) : (dat V c).after 0 t = blk V c 0 t := by dsimp only [dat]
theorem after_bias (c : Dev nD) (t : Fin cfg1.N) : (dat V c).after 1 t = blk V c 1 t := by dsimp only [dat]
theorem after_a (c : Dev nD) (t : Fin cfg1.N) : (dat V c).after 2 t = k1_pay3 (blk V c 0 t) (blk V c 1 t) := by dsimp only [dat]
theorem after_mean (c : Dev nD) (t : Fin cfg1.N) : (dat V c).after 3 t = k1_pay6 (sums V c t.val t.isLt).1 := by dsimp only [dat]
theorem after_var (c : Dev nD) (t : Fin cfg1.N) :
    (dat V c).after 4 t = k1_pay7 (sums V c t.val t.isLt).1 (sums V c t.val t.isLt).2 := by dsimp only [dat]

theorem before_agg (c : Dev nD) (t : Fin cfg1.N) (d) : (dat V c).before 0 t d = blk V c 0 t :=
  before_agg_of V (dat V c) (dat_A V c 0) (after_agg V c) t d
theorem before_bias (c : Dev nD) (t : Fin cfg1.N) (d) : (dat V c).before 1 t d = blk V c 1 t :=
  before_bias_of V (dat V c) (dat_A V c 1) (after_bias V c) t d

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns: each window's buffer at what the body left, or — a statistic row at a point that neither
    stores nor writes it back — as it was found. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_bias]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live_agg t]]
  rw [show (dat V c).leavesExact 1 t = owns (c : Thread nD τ) (st1_1 t) fullShare ((dat V c).after 1 t) from by
    unfold Dat.leavesExact; rw [live_bias t]]
  rw [show (dat V c).leavesExact 2 t = owns (c : Thread nD τ) (st1_2 t) fullShare ((dat V c).after 2 t) from by
    unfold Dat.leavesExact; rw [live_a t]]
  rw [after_agg, after_bias, after_a]
  have hN : t.val < 20 := lt_of_lt_of_eq t.isLt (show cfg1.N = 20 from N_1)
  by_cases h0 : t.val % 20 = 0
  · -- the first point
    have hz : t.val = 0 := by omega
    have hF : isFirst (grid1.coords t) := (isFirst_iff t).mpr h0
    have hL : ¬ isLast (grid1.coords t) := fun h => by have := (isLast_iff t).mp h; omega
    rw [Dat.leavesExact_idle (dat V c) 3 t (idle_mean t hL) (noFlush_mean t hL),
      Dat.leavesExact_idle (dat V c) 4 t (idle_var t hL) (noFlush_var t hL)]
    rw [sums_first V c t hz]; dsimp only
    rw [PhiS_castSucc V c t, PhiS_zero V c _ _ hz]
    iintro ⟨HΦ, Ho, ⟨%d0, H0⟩, ⟨%d1, H1⟩, ⟨%d2, H2⟩, ⟨%d3, H3⟩, ⟨%d4, H4⟩⟩
    ihave HΦ' := (scoped_open c) $$ HΦ
    icases HΦ' with ⟨HS0, HS1, Hoth, Hg⟩
    iapply (runs_first c Set.univ (grid1.coords t) _ _ _ _ _ _ _ _ _ _ _ _ _ _ hF hL (blk V c 0 t) (blk V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexists d3; iexact H3
    iexists d4; iexact H4
  · have hz : t.val ≠ 0 := fun h => h0 (by rw [h])
    have hF : ¬ isFirst (grid1.coords t) := fun h => h0 ((isFirst_iff t).mp h)
    rw [sums_step V c t hz]; dsimp only
    rw [PhiS_castSucc V c t, PhiS_pos V c _ _ hz]
    by_cases h1 : t.val % 20 = 19
    · -- the last point
      have hL : isLast (grid1.coords t) := (isLast_iff t).mpr h1
      rw [show (dat V c).leavesExact 3 t = owns (c : Thread nD τ) (st1_3 t) fullShare ((dat V c).after 3 t) from by
        unfold Dat.leavesExact; rw [live_mean t hL]]
      rw [show (dat V c).leavesExact 4 t = owns (c : Thread nD τ) (st1_4 t) fullShare ((dat V c).after 4 t) from by
        unfold Dat.leavesExact; rw [live_var t hL]]
      rw [after_mean, after_var, sums_step V c t hz]; dsimp only
      iintro ⟨⟨HS0, HS1, Hoth, Hg⟩, Ho, ⟨%d0, H0⟩, ⟨%d1, H1⟩, ⟨%d2, H2⟩, ⟨%d3, H3⟩, ⟨%d4, H4⟩⟩
      iapply (runs_last c Set.univ (grid1.coords t) _ _ _ _ _ _ _ _ _ _ _ _ _ _ hF hL (blk V c 0 t) (blk V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · -- a point in between
      have hL : ¬ isLast (grid1.coords t) := fun h => h1 ((isLast_iff t).mp h)
      rw [Dat.leavesExact_idle (dat V c) 3 t (idle_mean t hL) (noFlush_mean t hL),
        Dat.leavesExact_idle (dat V c) 4 t (idle_var t hL) (noFlush_var t hL)]
      iintro ⟨⟨HS0, HS1, Hoth, Hg⟩, Ho, ⟨%d0, H0⟩, ⟨%d1, H1⟩, ⟨%d2, H2⟩, ⟨%d3, H3⟩, ⟨%d4, H4⟩⟩
      iapply (runs_middle c Set.univ (grid1.coords t) _ _ _ _ _ _ _ _ _ _ _ _ _ _ hF hL (blk V c 0 t) (blk V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexists d3; iexact H3
      iexists d4; iexact H4

/-- The body obligation at every point. -/
theorem body_obligation (c : Dev nD) : BodyObligation (dat (F := F) V c) (defs₀ (F := F)) Variants.none () Set.univ := fun t => by
  rw [bigSep_W1, bigSep_W1]
  exact body_at V c t

/-- What the launch hands the region is the invariant before the first point; -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- after the last point the invariant gives it back, the running sums' names forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 20 := N_1; omega)]
  iintro ⟨HS0, HS1, Hoth, Hg⟩
  iapply (scoped_close c)
  isplitl [HS0]; · iexists _; iexact HS0
  isplitl [HS1]; · iexists _; iexact HS1
  isplitl [Hoth]; · iexact Hoth
  iexact Hg

end Cert.KernelIdeal.Stats

end
-- ==== Proof.KI.Normalize.lean ====
/-
  The third kernel region: y = max(γ · (a − μ) · (σ² + ε)^(−1/2) + β, 0), one block of 5000 rows of a per grid
  point against the four rows μ, σ², γ, β (each 1×128, fetched once and resident). At a grid point the body leaves
  in the output window's buffer that expression of the five loaded blocks — named through the body's one payload at
  any float instance, never computed here.
-/
import proofs.«110603_j82575041232956_1_alg».proof.Proof.Gen.KernelIdeal.Launch
import proofs.«110603_j82575041232956_1_alg».proof.Proof.Gen.KernelIdeal.Skeleton
import proofs.«110603_j82575041232956_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Normalize

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-- The block of window `w` at grid point `t`, read off the window's array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the point fetched it or an earlier one did: the rows of a, fetched at every point. -/
theorem before_a_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the row of means, fetched once and resident; -/
theorem before_mean_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- for the row of variances; -/
theorem before_var_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- for the scales; -/
theorem before_gamma_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- and for the shifts. -/
theorem before_beta_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The whole of a 5000×128 buffer and the whole of a 1×128 one: the only rectangles the body touches. -/
abbrev rowsRect : Rect S5000x128 := Rect.unit (s := S5000x128) ![0, 0] S5000x128.size inb_S5000x128_S5000x128_0_0
abbrev rowRect : Rect S1x128 := Rect.unit (s := S1x128) ![0, 0] S1x128.size inb_S1x128_S1x128_0_0

/-- What the body leaves in the output window's buffer: its one store, of the normalised and rectified block. -/
def normalized (x0 : Vec F S5000x128 .f32) (x1 x2 x3 x4 : Vec F S1x128 .f32) : Vec F S5000x128 .f32 :=
  View.canon [⟨rowsRect, k2_pay1 (View.ld x0 rowsRect) (View.ld x1 rowRect) (View.ld x2 rowRect) (View.ld x3 rowRect) (View.ld x4 rowRect)⟩]

/-- The one store covers the buffer. -/
theorem normalized_cover (p0 : Vec F S5000x128 .f32) (y : S5000x128.Idx) :
    ∃ pc ∈ ([⟨rowsRect, p0⟩] : List (View.Piece (Elt F) S5000x128 .f32)), y ∈ pc.1.set :=
  View.cover_of_tiled [⟨rowsRect, p0⟩] S5000x128.size (by rfl) y

set_option maxHeartbeats 1000000 in
/-- The body on whole buffers: the five inputs at known contents, the output at anything; it returns the inputs
    untouched and the output at `normalized` of them. -/
theorem body_runs (c : Dev nD) (E : Set ℕ) (i : grid2.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S5000x128 .f32) (h6 : a6.IsWhole)
    (x0 : Vec F S5000x128 .f32) (x1 x2 x3 x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (normalized x0 x1 x2 x3 x4)) -∗ K ⟨⟩))
      ⊢ wp frame (wpE (defs₀ (F := F)) Variants.none c none) E (cc2__bn_norm_kernel i a1 h1 a2 h2 a3 h3 a4 h4 a5 h5 a6 h6) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (normalized_cover _)

/-- The region's proof data on core `c`: the arrays as the region finds them; after the body each input buffer
    still at its block and the output buffer at the normalised block; the invariant only the buffers and register
    the body never names; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => normalized (blk V c 0 t) (blk V c 1 t) (blk V c 2 t) (blk V c 3 t) (blk V c 4 t)
  Φ _ := Pipeline.ΦA spec2 c
  q _ := fullShare
  owed _ := 0

theorem dat_A (c : Dev nD) (w : Fin cfg2.W) : (dat V c).A w = V c (Pipeline.arrRef spec2 w) := by
  dsimp only [dat]
theorem after_a (c : Dev nD) (t : Fin cfg2.N) : (dat V c).after 0 t = blk V c 0 t := by dsimp only [dat]
theorem after_mean (c : Dev nD) (t : Fin cfg2.N) : (dat V c).after 1 t = blk V c 1 t := by dsimp only [dat]
theorem after_var (c : Dev nD) (t : Fin cfg2.N) : (dat V c).after 2 t = blk V c 2 t := by dsimp only [dat]
theorem after_gamma (c : Dev nD) (t : Fin cfg2.N) : (dat V c).after 3 t = blk V c 3 t := by dsimp only [dat]
theorem after_beta (c : Dev nD) (t : Fin cfg2.N) : (dat V c).after 4 t = blk V c 4 t := by dsimp only [dat]
theorem after_y (c : Dev nD) (t : Fin cfg2.N) :
    (dat V c).after 5 t = normalized (blk V c 0 t) (blk V c 1 t) (blk V c 2 t) (blk V c 3 t) (blk V c 4 t) := by dsimp only [dat]

theorem before_a (c : Dev nD) (t : Fin cfg2.N) (d) : (dat V c).before 0 t d = blk V c 0 t :=
  before_a_of V (dat V c) (dat_A V c 0) (after_a V c) t d
theorem before_mean (c : Dev nD) (t : Fin cfg2.N) (d) : (dat V c).before 1 t d = blk V c 1 t :=
  before_mean_of V (dat V c) (dat_A V c 1) (after_mean V c) t d
theorem before_var (c : Dev nD) (t : Fin cfg2.N) (d) : (dat V c).before 2 t d = blk V c 2 t :=
  before_var_of V (dat V c) (dat_A V c 2) (after_var V c) t d
theorem before_gamma (c : Dev nD) (t : Fin cfg2.N) (d) : (dat V c).before 3 t d = blk V c 3 t :=
  before_gamma_of V (dat V c) (dat_A V c 3) (after_gamma V c) t d
theorem before_beta (c : Dev nD) (t : Fin cfg2.N) (d) : (dat V c).before 4 t d = blk V c 4 t :=
  before_beta_of V (dat V c) (dat_A V c 4) (after_beta V c) t d

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_a, before_mean, before_var, before_gamma, before_beta]
  rw [show (dat V c).Φ t.succ = (dat V c).Φ t.castSucc from rfl,
    show (dat V c).owesAt () t.succ = (dat V c).owesAt () t.castSucc from rfl,
    after_a, after_mean, after_var, after_gamma, after_beta, after_y]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation (c : Dev nD) : BodyObligation (dat (F := F) V c) (defs₀ (F := F)) Variants.none () Set.univ := fun t => by
  rw [bigSep_W2, bigSep_W2]
  exact body_at V c t

end Cert.KernelIdeal.Normalize

end
-- ==== Proof.KI.Run.lean ====
/-
  The whole program: host operations, the x·W region, host operations (the gathers, the edge scaling and the
  scatter-add), the statistics region, the normalisation region. What every unscoped buffer holds at each boundary
  between two of these is a fold from the launch memory — a host stretch applies its operations, a region replaces its
  output arrays by what its write-backs leave — and every weakly fair execution of @main ends with every unscoped
  buffer at the last fold. The argument arrays come through the fold unchanged; the result array is the last region's
  output read off its proof data.
-/
import proofs.«110603_j82575041232956_1_alg».proof.Proof.KI.Project
import proofs.«110603_j82575041232956_1_alg».proof.Proof.KI.StatsRegion
import proofs.«110603_j82575041232956_1_alg».proof.Proof.KI.Normalize
import proofs.«110603_j82575041232956_1_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- The core's buffers at launch, -/
abbrev W0 : Dev nD → Valuation τ sig (Elt F) := fun c b => m (c, b)
/-- after the first host stretch (the edge lists with self-loops, the degrees, the edge weights), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its windows' arrays at what the write-backs leave, every other buffer as entered. -/
def W2 (c : Dev nD) : Valuation τ sig (Elt F) :=
  Pipeline.withArrays spec0 c (W1 m c) fun w => (Project.dat (V1 m) c).arrAt w cfg0.N
theorem W2_arr (c : Dev nD) (w : Fin cfg0.W) :
    W2 m c (Proc.devRef .tc (Pipeline.arrRef spec0 w)) = (Project.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m c b
theorem arrs0 (c : Dev nD) (w : Fin cfg0.W) : (Project.dat (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (gather, scale, scatter-add; the three rows reshaped). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its windows' arrays at what the write-backs leave, every other buffer as entered. -/
def W4 (c : Dev nD) : Valuation τ sig (Elt F) :=
  Pipeline.withArrays spec1 c (W3 m c) fun w => (Stats.dat (V3 m) c).arrAt w cfg1.N
theorem W4_arr (c : Dev nD) (w : Fin cfg1.W) :
    W4 m c (Proc.devRef .tc (Pipeline.arrRef spec1 w)) = (Stats.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m c b
theorem arrs1 (c : Dev nD) (w : Fin cfg1.W) : (Stats.dat (V3 m) c).arrAt w cfg1.N = V4 m c (Pipeline.arrRef spec1 w) :=
  (W4_arr m c w).symm
theorem rest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After region 2: its windows' arrays at what the write-backs leave, every other buffer as entered. -/
def W5 (c : Dev nD) : Valuation τ sig (Elt F) :=
  Pipeline.withArrays spec2 c (W4 m c) fun w => (Normalize.dat (V4 m) c).arrAt w cfg2.N
theorem W5_arr (c : Dev nD) (w : Fin cfg2.W) :
    W5 m c (Proc.devRef .tc (Pipeline.arrRef spec2 w)) = (Normalize.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the core's references. -/
abbrev V5 : (c : Dev nD) → (b : Ref sig .tc) → Buf (Elt F) ((c : Thread nD τ).loc b) := fun c b => W5 m c b
theorem arrs2 (c : Dev nD) (w : Fin cfg2.W) : (Normalize.dat (V4 m) c).arrAt w cfg2.N = V5 m c (Pipeline.arrRef spec2 w) :=
  (W5_arr m c w).symm
theorem rest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

/-- `main_arg0` reaches the end as launched: no host operation writes it and no region's write-back touches it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Project.dat (V1 m) c).arrAt_in 0 rfl _).trans (Project.dat_A (V1 m) c 0))
    _ = W0 m c (Proc.devRef .tc main_arg0) := StableHlo.after_of_writes_sub hostOps0 _ hostOps0_writes (by decide)
    _ = m ((c : Thread nD τ).loc main_arg0) := rfl

/-- `main_arg1` reaches the end as launched: no host operation writes it and no region's write-back touches it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((Project.dat (V1 m) c).arrAt_in 1 rfl _).trans (Project.dat_A (V1 m) c 1))
    _ = W0 m c (Proc.devRef .tc main_arg1) := StableHlo.after_of_writes_sub hostOps0 _ hostOps0_writes (by decide)
    _ = m ((c : Thread nD τ).loc main_arg1) := rfl

/-- `main_arg2` reaches the end as launched: no host operation writes it and no region's write-back touches it. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it and no region's write-back touches it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it and no region's write-back touches it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it and no region's write-back touches it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The proof data family and what rides along -/

/-- No region has a prefetched table. -/
abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => Project.dat (V1 m) c
  | ⟨1, _⟩ => fun c => Stats.dat (V3 m) c
  | ⟨2, _⟩ => fun c => Normalize.dat (V4 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last fold, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 as a segment of @main: entered with every unscoped buffer at `W1`, left with them at `W2`. Its
    windows' arrays are split out of the unscoped buffers at entry and put back at what the write-backs left at exit; the
    generator register goes into the region's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W3`, left with them at `W4`. Its
    windows' arrays are split out of the unscoped buffers at entry and put back at what the write-backs left at exit; the
    generator register goes into the region's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stats.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (Stats.Phi_in (V3 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Stats.Phi_out (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at `W4`, left with them at `W5`. Its
    windows' arrays are split out of the unscoped buffers at entry and put back at what the write-backs left at exit; the
    generator register goes into the region's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Normalize.body_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (arrs2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run m ρ)

end Cert.KernelIdeal.Whole

end
-- ==== Proof.LibSubDot.lean ====
/-
  The algebra of the two sides. Over the extended reals, with every operand finite, a difference of two dot products
  against the same vector is the dot product of the difference: the operands are real numbers, the coercion from the
  reals commutes with finite sums, products and differences, and in the reals multiplication distributes over
  subtraction under a finite sum.
-/
import Idealize.ShloMosaic.PureOps.Ideal
import Idealize.ShloMosaic.Lib.ValueIdx

noncomputable section

open scoped BigOperators

namespace Cert.Bridge

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Finite operands: the difference of two dot products against w, plus β, is the dot product of the difference, plus β. -/
theorem sub_dot_gen {n : Nat} (a b w : Fin n → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β := by
  choose ar har using ha
  choose br hbr using hb
  choose wr hwr using hw
  have h1 : ∑ k, a k * w k = ((∑ k, ar k * wr k : ℝ) : EReal) := by
    rw [coe_sum]
    exact Finset.sum_congr rfl fun k _ => by rw [har, hwr, EReal.coe_mul]
  have h2 : ∑ k, b k * w k = ((∑ k, br k * wr k : ℝ) : EReal) := by
    rw [coe_sum]
    exact Finset.sum_congr rfl fun k _ => by rw [hbr, hwr, EReal.coe_mul]
  have h3 : ∑ k, (a k - b k) * w k = ((∑ k, (ar k - br k) * wr k : ℝ) : EReal) := by
    rw [coe_sum]
    exact Finset.sum_congr rfl fun k _ => by rw [har, hbr, hwr, ← EReal.coe_sub, EReal.coe_mul]
  rw [h1, h2, h3, ← EReal.coe_sub, ← Finset.sum_sub_distrib]
  refine congrArg (fun t : ℝ => (t : EReal) + β) (Finset.sum_congr rfl fun k _ => ?_)
  rw [sub_mul]

/-- The instance at the 768 feature coordinates. -/
theorem sub_dot (a b w : Fin 768 → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β :=
  sub_dot_gen a b w β ha hb hw

end Cert.Bridge

end
-- ==== Proof.BnSpec.lean ====
/-
  Batch normalisation down the rows of a 100000 × 128 array followed by a rectifier, in two arrangements, and the
  law that joins them.

  For a column c write S_c = Σ_p a(p,c), Q_c = Σ_p a(p,c)², n = 100000 and μ_c = S_c / n. One arrangement takes the
  variance as the mean of the squared deviations, (Σ_p (a(p,c) − μ_c)²) / n; the other as the mean of the squares
  minus the squared mean, Q_c / n − μ_c². Both then return max((γ_c · (a(p,c) − μ_c)) · rsqrt(var_c + ε) + β_c, 0).

  When every entry of a is a real number the two variances are the same real number: expand the square under the
  sum, Σ_p (a_p − μ)² = Q − 2μS + nμ², and use S = nμ — which is where the divisor has to BE the number of rows, so
  the pattern of 100000 is evaluated here. The offset ε is the same word on both sides and is never evaluated.
  Finiteness is needed: over the extended reals the square of a difference does not expand at an infinite entry.
-/
import Idealize.ShloMosaic.PureOps.Ideal
import Idealize.ShloMosaic.Lib.ValueIdx
import proofs.«110603_j82575041232956_1_alg».proof.Proof.LibSubDot

noncomputable section

open scoped BigOperators

namespace Cert.RefSide

open Idealize.ShloMosaic Idealize.ShloMosaic.ValueIdx

/-- The shape of the normalised array: 100000 rows of 128 features. -/
abbrev SA : Shape := ⟨2, ![100000, 128]⟩

/-- The number of rows as both programs spell it: the f32 pattern of 100000. -/
def nRows : EReal := Ideal.ofBits .f32 0x47C35000#32

/-- The variance offset as both programs spell it: the f32 pattern nearest 1e-5. -/
def bnEps : EReal := Ideal.ofBits .f32 0x3727C5AC#32

/-- The pattern 0x47C35000 is (2²³ + 4411392) · 2⁻⁷ = 100000. -/
theorem nRows_eq : nRows = ((100000 : ℝ) : EReal) := by
  unfold nRows
  simp [Ideal.ofBits, Ideal.ieee, -EReal.coe_mul]; norm_num

/-- S_c: the sum of column c. -/
def colSum (a : SA.Idx → EReal) (c : Fin 128) : EReal := ∑ p : Fin 100000, a (ix2 p c)

/-- Q_c: the sum of the squares of column c. -/
def colSumSq (a : SA.Idx → EReal) (c : Fin 128) : EReal := ∑ p : Fin 100000, a (ix2 p c) * a (ix2 p c)

/-- μ_c = S_c / n. -/
def colMean (a : SA.Idx → EReal) (c : Fin 128) : EReal := Ideal.div (colSum a c) nRows

/-- The variance as the mean of the squares minus the squared mean, Q_c / n − μ_c · μ_c. -/
def varOfSquares (a : SA.Idx → EReal) (c : Fin 128) : EReal :=
  Ideal.div (colSumSq a c) nRows - colMean a c * colMean a c

/-- The variance as the mean of the squared deviations, (Σ_p (a(p,c) − μ_c) · (a(p,c) − μ_c)) / n. -/
def varOfDeviations (a : SA.Idx → EReal) (c : Fin 128) : EReal :=
  Ideal.div (∑ p : Fin 100000, (a (ix2 p c) - colMean a c) * (a (ix2 p c) - colMean a c)) nRows

/-- The normalised, scaled, shifted and rectified entry (p, c), for a given variance v of each column. -/
def bnAt (v : Fin 128 → EReal) (a : SA.Idx → EReal) (gamma beta : Fin 128 → EReal) (p : Fin 100000) (c : Fin 128) :
    EReal :=
  max ((gamma c * (a (ix2 p c) - colMean a c)) * Ideal.rsqrt (v c + bnEps) + beta c) 0

/-- The arrangement with the variance Q_c / n − μ_c². -/
def bnKernel (a : SA.Idx → EReal) (gamma beta : Fin 128 → EReal) : SA.Idx → EReal :=
  fun i => bnAt (varOfSquares a) a gamma beta (i 0) (i 1)

/-- The arrangement with the variance (Σ_p (a(p,c) − μ_c)²) / n. -/
def bnRef (a : SA.Idx → EReal) (gamma beta : Fin 128 → EReal) : SA.Idx → EReal :=
  fun i => bnAt (varOfDeviations a) a gamma beta (i 0) (i 1)

theorem bnKernel_apply (a : SA.Idx → EReal) (gamma beta : Fin 128 → EReal) (p : Fin 100000) (c : Fin 128) :
    bnKernel a gamma beta (ix2 p c)
      = max ((gamma c * (a (ix2 p c) - colMean a c)) * Ideal.rsqrt (varOfSquares a c + bnEps) + beta c) 0 := rfl

theorem bnRef_apply (a : SA.Idx → EReal) (gamma beta : Fin 128 → EReal) (p : Fin 100000) (c : Fin 128) :
    bnRef a gamma beta (ix2 p c)
      = max ((gamma c * (a (ix2 p c) - colMean a c)) * Ideal.rsqrt (varOfDeviations a c + bnEps) + beta c) 0 := rfl

/-- In the reals, over the 100000 rows: the mean of the squared deviations from the mean is the mean of the squares
    minus the squared mean. With S the sum and μ = S / n, Σ_p (a_p − μ)² = Σ_p a_p² − 2μS + nμ², and n is the number
    of terms. -/
theorem mean_sq_dev (ar : Fin 100000 → ℝ) :
    (∑ p, (ar p - (∑ q, ar q) * (1 / 100000)) * (ar p - (∑ q, ar q) * (1 / 100000))) * (1 / 100000)
      = (∑ p, ar p * ar p) * (1 / 100000) - ((∑ q, ar q) * (1 / 100000)) * ((∑ q, ar q) * (1 / 100000)) := by
  generalize hS : (∑ q, ar q) = S
  have h : ∀ p, (ar p - S * (1 / 100000)) * (ar p - S * (1 / 100000))
      = ar p * ar p - (2 * (S * (1 / 100000))) * ar p + (S * (1 / 100000)) * (S * (1 / 100000)) := fun p => by ring
  rw [Finset.sum_congr rfl fun p _ => h p, Finset.sum_add_distrib, Finset.sum_sub_distrib, ← Finset.mul_sum, hS,
    Finset.sum_const, Finset.card_univ, Fintype.card_fin, nsmul_eq_mul]
  push_cast
  ring

/-- Finite entries: the two variances of a column are equal. Every quantity is the coercion of a real (the coercion
    commutes with finite sums, products and differences, and a quotient by the real 100000 is a product with its
    reciprocal), and between the reals it is `mean_sq_dev`. -/
theorem varOfSquares_eq_varOfDeviations (a : SA.Idx → EReal)
    (ha : ∀ (p : Fin 100000) (c : Fin 128), ∃ r : ℝ, a (ix2 p c) = (r : EReal)) (c : Fin 128) :
    varOfSquares a c = varOfDeviations a c := by
  choose ar har using ha
  have hn : (100000 : ℝ) ≠ 0 := by norm_num
  have hS : colSum a c = ((∑ p, ar p c : ℝ) : EReal) := by
    unfold colSum
    rw [Cert.Bridge.coe_sum]
    exact Finset.sum_congr rfl fun p _ => har p c
  have hμ : colMean a c = (((∑ p, ar p c) * (1 / 100000) : ℝ) : EReal) := by
    unfold colMean
    rw [hS, nRows_eq, Ideal.div_coe hn, ← EReal.coe_mul]
  have hQ : colSumSq a c = ((∑ p, ar p c * ar p c : ℝ) : EReal) := by
    unfold colSumSq
    rw [Cert.Bridge.coe_sum]
    exact Finset.sum_congr rfl fun p _ => by rw [har p c, EReal.coe_mul]
  have hD : (∑ p : Fin 100000, (a (ix2 p c) - colMean a c) * (a (ix2 p c) - colMean a c))
      = ((∑ p, (ar p c - (∑ q, ar q c) * (1 / 100000)) * (ar p c - (∑ q, ar q c) * (1 / 100000)) : ℝ) : EReal) := by
    rw [Cert.Bridge.coe_sum]
    exact Finset.sum_congr rfl fun p _ => by rw [har p c, hμ, ← EReal.coe_sub, ← EReal.coe_mul]
  unfold varOfSquares varOfDeviations
  rw [hD, hQ, hμ, nRows_eq, Ideal.div_coe hn, Ideal.div_coe hn, ← EReal.coe_mul, ← EReal.coe_mul, ← EReal.coe_mul,
    ← EReal.coe_sub]
  exact congrArg (fun t : ℝ => (t : EReal)) (mean_sq_dev fun p => ar p c).symm

/-- Finite entries: the two arrangements agree at every entry. -/
theorem bnKernel_eq_bnRef (a : SA.Idx → EReal) (gamma beta : Fin 128 → EReal)
    (ha : ∀ (p : Fin 100000) (c : Fin 128), ∃ r : ℝ, a (ix2 p c) = (r : EReal)) :
    bnKernel a gamma beta = bnRef a gamma beta := by
  funext i
  show bnAt (varOfSquares a) a gamma beta (i 0) (i 1) = bnAt (varOfDeviations a) a gamma beta (i 0) (i 1)
  exact congrArg (fun v => bnAt v a gamma beta (i 0) (i 1)) (funext (varOfSquares_eq_varOfDeviations a ha))

end Cert.RefSide

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KI.PayloadsAt.lean ====
/-
  The kernel's pure payloads read at an entry, over the extended reals.

  Three bodies. The first multiplies a 5000 × 128 block by the 128 × 128 weights into a zero accumulator (the change
  of format on the way in is the identity): entry (p, c) is Σ_k x(p,k) · w(k,c). The second adds the bias row to a
  block, adds the block's column sums and the column sums of its squares to two running rows (which start at zero),
  and at the end divides the running rows by the number of rows: the mean, and the mean of the squares minus the
  squared mean. The third normalises a block entry by entry with the mean and variance rows, the scale and shift
  rows, and rectifies. A row vector spread down a block reads, at (p, c), its entry (0, c); a column sum reads, at c,
  the sum over the block's rows; a cast to the same shape is the identity.
-/
import proofs.«110603_j82575041232956_1_alg».proof.Proof.Gen.KernelIdeal.Skeleton
import proofs.«110603_j82575041232956_1_alg».proof.Proof.BnSpec
import proofs.«110603_j82575041232956_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadsAt

open Cert.KernelIdeal Cert.KernelIdeal.Gen Idealize.ShloMosaic Idealize.ShloMosaic.ValueIdx Cert.RefSide

/-! ## Two general readings -/

/-- Over the extended reals the sum of an n × m matrix down its first axis reads, at c, Σ_k src(k, c). -/
theorem colSum_apply {n m : ℕ} {φ : FTy} (src : FVec Ideal ⟨2, ![n, m]⟩ φ) (acc : BitVec φ.bits)
    (h : (⟨2, ![n, m]⟩ : Shape).Reduces [0] ⟨1, ![m]⟩) (hφ : FKind.Formats φ) (hacc : acc = FKind.add.neutral φ hφ)
    (c : Fin m) :
    multiReduction .add [0] ⟨1, ![m]⟩ src acc h hφ hacc (ix1 c) = ∑ k : Fin n, src (ix2 k c) := by
  refine (Ideal.multiReduction_add_single src acc h hφ hacc (ix1 c)).trans ?_
  refine Finset.sum_congr rfl fun k _ => congrArg src ?_
  funext d
  apply Fin.ext
  match d with
  | ⟨0, _⟩ => rfl
  | ⟨1, _⟩ => rfl

/-! ## The product's index maps, coordinate by coordinate -/

theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The first body: the product -/

/-- Entry (p, c) of a block's product with the weights: Σ_k x(p,k) · w(k,c). -/
theorem product_at (x : Vec Ideal S5000x128 .f32) (w : Vec Ideal S128x128 .f32) (p : Fin 5000) (c : Fin 128) :
    k0_pay1 (F := Ideal) x w (ix2 p c) = ∑ k : Fin 128, x (ix2 p k) * w (ix2 k c) := by
  unfold k0_pay1
  exact Cert.PlainDot.matmul_zero_apply dot_S5000x128_S128x128_S5000x128_1_0_0_1_n_n rfl rfl dot_l0 dot_l1 dot_r0 dot_r1 none
    (truncf .bf16 x bitsLt_bf16_f32) (truncf .bf16 w bitsLt_bf16_f32) p c

/-! ## The second body: bias, running sums, mean and variance -/

/-- Entry (p, c) of a block plus the bias row. -/
theorem biased_at (x : Vec Ideal S5000x128 .f32) (b : Vec Ideal S1x128 .f32) (p : Fin 5000) (c : Fin 128) :
    k1_pay3 (F := Ideal) x b (ix2 p c) = x (ix2 p c) + b (ix2 (0 : Fin 1) c) := by
  unfold k1_pay3
  simp only [shapeCast_self]
  exact congrArg (x (ix2 p c) + ·) (broadcastTo_1b_ab_apply b broadcasts_S1x128_S5000x128 p c)

/-- The running sum row starts at zero. -/
theorem zero_sum_at (c : Fin 128) : k1_pay1 (F := Ideal) (ix2 (0 : Fin 1) c) = 0 := by
  unfold k1_pay1
  simp only [shapeCast_self]
  exact Ideal.ofBits_zero_f32

/-- The running sum-of-squares row starts at zero. -/
theorem zero_sq_at (c : Fin 128) : k1_pay2 (F := Ideal) (ix2 (0 : Fin 1) c) = 0 := by
  unfold k1_pay2
  simp only [shapeCast_self]
  exact Ideal.ofBits_zero_f32

/-- The running sum row after a block: its entry c plus the column sum of the biased block. -/
theorem sum_at (x : Vec Ideal S5000x128 .f32) (b s : Vec Ideal S1x128 .f32) (c : Fin 128) :
    k1_pay4 (F := Ideal) x b s (ix2 (0 : Fin 1) c)
      = s (ix2 (0 : Fin 1) c) + ∑ p : Fin 5000, (x (ix2 p c) + b (ix2 (0 : Fin 1) c)) := by
  unfold k1_pay4
  dsimp only
  simp only [shapeCast_self]
  refine congrArg (s (ix2 (0 : Fin 1) c) + ·) ?_
  refine (shapeCast_a_1a_apply _ shapeCasts_S128_S1x128 (0 : Fin 1) c).trans ?_
  refine (colSum_apply (k1_pay3 (F := Ideal) x b) 0x00000000#32 reduces_S5000x128_S128 (.inl rfl) rfl c).trans ?_
  exact Finset.sum_congr rfl fun p _ => biased_at x b p c

/-- The running sum-of-squares row after a block: its entry c plus the column sum of the squares of the biased block. -/
theorem sumsq_at (x : Vec Ideal S5000x128 .f32) (b q : Vec Ideal S1x128 .f32) (c : Fin 128) :
    k1_pay5 (F := Ideal) x b q (ix2 (0 : Fin 1) c)
      = q (ix2 (0 : Fin 1) c)
        + ∑ p : Fin 5000, (x (ix2 p c) + b (ix2 (0 : Fin 1) c)) * (x (ix2 p c) + b (ix2 (0 : Fin 1) c)) := by
  unfold k1_pay5
  dsimp only
  simp only [shapeCast_self]
  refine congrArg (q (ix2 (0 : Fin 1) c) + ·) ?_
  refine (shapeCast_a_1a_apply _ shapeCasts_S128_S1x128 (0 : Fin 1) c).trans ?_
  refine (colSum_apply (mulf (k1_pay3 (F := Ideal) x b) (k1_pay3 (F := Ideal) x b)) 0x00000000#32
    reduces_S5000x128_S128 (.inl rfl) rfl c).trans ?_
  refine Finset.sum_congr rfl fun p _ => ?_
  show k1_pay3 (F := Ideal) x b (ix2 p c) * k1_pay3 (F := Ideal) x b (ix2 p c) = _
  rw [biased_at]

/-- The mean row: the running sum over the number of rows. -/
theorem mean_at (s : Vec Ideal S1x128 .f32) (c : Fin 128) :
    k1_pay6 (F := Ideal) s (ix2 (0 : Fin 1) c) = Ideal.div (s (ix2 (0 : Fin 1) c)) nRows := by
  unfold k1_pay6
  rfl

/-- The variance row: the running sum of squares over the number of rows, minus the squared mean. -/
theorem var_at (s q : Vec Ideal S1x128 .f32) (c : Fin 128) :
    k1_pay7 (F := Ideal) s q (ix2 (0 : Fin 1) c)
      = Ideal.div (q (ix2 (0 : Fin 1) c)) nRows
        - Ideal.div (s (ix2 (0 : Fin 1) c)) nRows * Ideal.div (s (ix2 (0 : Fin 1) c)) nRows := by
  unfold k1_pay7 k1_pay6
  rfl

/-! ## The third body: normalise, scale, shift, rectify -/

/-- Entry (p, c) of the normalised block. -/
theorem normalized_at (a : Vec Ideal S5000x128 .f32) (mu v g be : Vec Ideal S1x128 .f32) (p : Fin 5000) (c : Fin 128) :
    k2_pay1 (F := Ideal) a mu v g be (ix2 p c)
      = max ((g (ix2 (0 : Fin 1) c) * (a (ix2 p c) - mu (ix2 (0 : Fin 1) c)))
          * Ideal.rsqrt (v (ix2 (0 : Fin 1) c) + bnEps) + be (ix2 (0 : Fin 1) c)) 0 := by
  unfold k2_pay1
  simp only [shapeCast_self]
  show max ((broadcastTo S5000x128 g broadcasts_S1x128_S5000x128 (ix2 p c)
        * (a (ix2 p c) - broadcastTo S5000x128 mu broadcasts_S1x128_S5000x128 (ix2 p c)))
      * broadcastTo S5000x128 (rsqrt (addf v (broadcast S1x128 (Scalar.ofBits (F := Ideal) .f32 0x3727C5AC#32))))
          broadcasts_S1x128_S5000x128 (ix2 p c)
      + broadcastTo S5000x128 be broadcasts_S1x128_S5000x128 (ix2 p c)) (Ideal.ofBits .f32 0x00000000#32) = _
  rw [broadcastTo_1b_ab_apply g, broadcastTo_1b_ab_apply mu, broadcastTo_1b_ab_apply be,
    broadcastTo_1b_ab_apply (rsqrt (addf v (broadcast S1x128 (Scalar.ofBits (F := Ideal) .f32 0x3727C5AC#32)))),
    Ideal.ofBits_zero_f32]
  rfl

end Cert.KernelIdeal.PayloadsAt

end
-- ==== Proof.KI.ProjectValue.lean ====
/-
  The first region's output array, at the exact instance: entry (p, c) of h is Σ_k x[p,k] · W[k,c].
  Grid point t writes back rows 5000·t … 5000·t + 4999, each entry the product of a row of the x-block (rows of x at
  the same offset) with a column of W; the twenty blocks tile the 100000 rows, the point covering row p being p / 5000.
-/
import proofs.«110603_j82575041232956_1_alg».proof.Proof.KI.Project
import proofs.«110603_j82575041232956_1_alg».proof.Proof.KI.PayloadsAt
import Idealize.ShloMosaic.Lib.Pipeline.Value
import Idealize.ShloMosaic.Lib.ValueIdx

set_option maxRecDepth 16384

noncomputable section

namespace Cert.KernelIdeal.Project

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

-- what the core's buffers hold when the region is entered, floats read as extended reals
variable (V : (c : Dev nD) → (b : Ref sig .tc) → Buf (Elt Ideal) ((c : Thread nD τ).loc b))

theorem zeros2 : (![0, 0] : Fin 2 → ℕ) = fun _ => 0 := funext fun a => by fin_cases a <;> rfl

/-- The matrix product, entry by entry. -/
def matProduct (x : S100000x128.Idx → EReal) (w : S128x128.Idx → EReal) : S100000x128.Idx → EReal :=
  fun i => ∑ k : Fin 128, x (ix2 (i 0) k) * w (ix2 k (i 1))

/-- Where the three windows' blocks sit at point `t`: the x-block and the h-block at row block `t`, W whole. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (r : Fin 5000) : 5000 * t.val + r.val < 100000 := by
  have hN : cfg0.N = 20 := N_0
  have := t.isLt; have := r.isLt; omega

/-- An entry of the x-block at point `t` is x's entry 5000·t rows further down. -/
theorem x_block_at (c : Dev nD) (t : Fin cfg0.N) (r : Fin 5000) (k : Fin 128) :
    blk V c 0 t (ix2 r k) = V c main_arg0 (ix2 ⟨5000 * t.val + r.val, row_lt t r⟩ k) := by
  obtain ⟨e0, e1, -⟩ := blocks_at t
  show V c main_arg0 (((cfg0.win 0).blk t).view.emb (ix2 r k)) = _
  refine congrArg _ (funext fun a => Fin.ext ?_)
  match a with
  | ⟨0, _⟩ => show win0_0.index t (0 : Fin 2) * 5000 + 1 * r.val = 5000 * t.val + r.val; omega
  | ⟨1, _⟩ => show win0_0.index t (1 : Fin 2) * 128 + 1 * k.val = k.val; omega

/-- W's block is W. -/
theorem w_block_at (c : Dev nD) (t : Fin cfg0.N) (k q : Fin 128) :
    blk V c 1 t (ix2 k q) = V c main_arg1 (ix2 k q) := by
  obtain ⟨-, -, e2, e3, -⟩ := blocks_at t
  show V c main_arg1 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the matrix product of the arrays as the region finds them. -/
theorem flushed_h (c : Dev nD) (t : Fin cfg0.N) :
    (dat V c).flushed 2 t = ((cfg0.win 2).blk t).view.read (Elt Ideal) (matProduct (V c main_arg0) (V c main_arg1)) := by
  show (cfg0.win 2).cut (grid0.coords t) ((dat V c).after 2 t) = _
  rw [after_h]
  unfold product
  rw [View.canon_unit_zero zeros2]
  simp only [View.ld_unit_zero (S := S5000x128) zeros2, View.ld_unit_zero (S := S128x128) zeros2]
  obtain ⟨-, -, -, -, e4, e5⟩ := blocks_at t
  funext j
  obtain ⟨p, q, rfl⟩ : ∃ (p : Fin 5000) (q : Fin 128), j = ix2 p q := ⟨j 0, j 1, eq_ix2 j⟩
  show k0_pay1 (F := Ideal) (blk V c 0 t) (blk V c 1 t) (ix2 p q)
    = matProduct (V c main_arg0) (V c main_arg1) (((cfg0.win 2).blk t).view.emb (ix2 p q))
  refine (PayloadsAt.product_at (blk V c 0 t) (blk V c 1 t) p q).trans ?_
  have hi : ((cfg0.win 2).blk t).view.emb (ix2 p q) = ix2 ⟨5000 * t.val + p.val, row_lt t p⟩ q := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  rw [hi]
  unfold matProduct
  refine Finset.sum_congr rfl fun k _ => ?_
  rw [x_block_at V c t p k, w_block_at V c t k q]

/-- An index of the array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every entry is in the block of the point its row falls in. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e4, e5⟩ := blocks_at ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- THE ARRAY h after the region: the matrix product of x and W as the region finds them. -/
theorem h_final (c : Dev nD) : (dat V c).arrAt 2 cfg0.N = matProduct (V c main_arg0) (V c main_arg1) :=
  (dat V c).arrAt_eq_of_cover 2 _ (fun t _ => flushed_h V c t) covered

end Cert.KernelIdeal.Project

end
-- ==== Proof.KI.StatsValueA.lean ====
/-
  The statistics region's first output, at the exact instance: a[p, c] = agg[p, c] + b[c], where agg is the array the
  region finds in its first window and b the 1×128 row in its second. Grid point t writes back rows
  5000·t … 5000·t + 4999; the twenty blocks tile the rows. Also: what an entry of the aggregate's block and of the bias
  row at a point is, in coordinates of the arrays — the form the running sums are read in.
-/
import proofs.«110603_j82575041232956_1_alg».proof.Proof.KI.StatsRegion
import proofs.«110603_j82575041232956_1_alg».proof.Proof.KI.PayloadsAt
import Idealize.ShloMosaic.Lib.Pipeline.Value
import Idealize.ShloMosaic.Lib.ValueIdx

set_option maxRecDepth 16384

noncomputable section

namespace Cert.KernelIdeal.Stats

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

-- what the core's buffers hold when the region is entered, floats read as extended reals
variable (V : (c : Dev nD) → (b : Ref sig .tc) → Buf (Elt Ideal) ((c : Thread nD τ).loc b))

/-- Aggregate plus bias, entry by entry. -/
def biased (x : S100000x128.Idx → EReal) (b : S1x128.Idx → EReal) : S100000x128.Idx → EReal :=
  fun i => x i + b (ix2 0 (i 1))

/-- Where the windows' blocks sit at point `t`: the aggregate's block and a's block at row block `t`; the bias row
    and the two statistic rows whole. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem row_lt (t : Fin cfg1.N) (r : Fin 5000) : 5000 * t.val + r.val < 100000 := by
  have hN : cfg1.N = 20 := N_1
  have := t.isLt; have := r.isLt; omega

/-- An entry of the aggregate's block at point `t` is the aggregate's entry 5000·t rows further down. -/
theorem agg_block_at (c : Dev nD) (t : Fin cfg1.N) (r : Fin 5000) (q : Fin 128) :
    blk V c 0 t (ix2 r q) = V c main_v40 (ix2 ⟨5000 * t.val + r.val, row_lt t r⟩ q) := by
  obtain ⟨e0, e1, -⟩ := blocks_at t
  show V c main_v40 (((cfg1.win 0).blk t).view.emb (ix2 r q)) = _
  refine congrArg _ (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * q.val = q.val; omega

/-- The bias row's block is the bias row. -/
theorem bias_block_at (c : Dev nD) (t : Fin cfg1.N) (q : Fin 128) :
    blk V c 1 t (ix2 0 q) = V c main_v41 (ix2 0 q) := by
  obtain ⟨-, -, e2, e3, -⟩ := blocks_at t
  show V c main_v41 (((cfg1.win 1).blk t).view.emb (ix2 0 q)) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- What point `t` writes back into a is block `t` of aggregate plus bias. -/
theorem flushed_a (c : Dev nD) (t : Fin cfg1.N) :
    (dat V c).flushed 2 t = ((cfg1.win 2).blk t).view.read (Elt Ideal) (biased (V c main_v40) (V c main_v41)) := by
  show (cfg1.win 2).cut (grid1.coords t) ((dat V c).after 2 t) = _
  rw [after_a]
  obtain ⟨-, -, -, -, e4, e5, -⟩ := blocks_at t
  funext j
  obtain ⟨p, q, rfl⟩ : ∃ (p : Fin 5000) (q : Fin 128), j = ix2 p q := ⟨j 0, j 1, eq_ix2 j⟩
  show k1_pay3 (F := Ideal) (blk V c 0 t) (blk V c 1 t) (ix2 p q)
    = biased (V c main_v40) (V c main_v41) (((cfg1.win 2).blk t).view.emb (ix2 p q))
  refine (PayloadsAt.biased_at (blk V c 0 t) (blk V c 1 t) p q).trans ?_
  rw [agg_block_at V c t p q, bias_block_at V c t q]
  unfold biased
  have hi : ((cfg1.win 2).blk t).view.emb (ix2 p q) = ix2 ⟨5000 * t.val + p.val, row_lt t p⟩ q := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * q.val = q.val; omega
  rw [hi]

theorem mem_block_a (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44_0).slice (win1_2.rect t)).set ↔ _
  rw [View.set_slice_whole, Rect.mem_set_unit]
  exact Iff.rfl

theorem covered_a (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, e4, e5, -⟩ := blocks_at ⟨(i 0).val / 5000, ht⟩
  refine ⟨⟨(i 0).val / 5000, ht⟩, flush1_2 _, ?_⟩
  rw [mem_block_a]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- THE ARRAY a after the region: aggregate plus bias, as the region finds them. -/
theorem a_final (c : Dev nD) : (dat V c).arrAt 2 cfg1.N = biased (V c main_v40) (V c main_v41) :=
  (dat V c).arrAt_eq_of_cover 2 _ (fun t _ => flushed_a V c t) covered_a

end Cert.KernelIdeal.Stats

end
-- ==== Proof.KI.BlockSums.lean ====
/-
  Twenty blocks of 5000 rows are the 100000 rows, and a running total is the sum of what was added.

  Row p of 100000 is row r of block t with p = 5000 · t + r, and (t, r) ↦ 5000 · t + r is a bijection from pairs of a
  block number below 20 and a row below 5000 onto the rows below 100000; so a sum over the rows is the sum over the
  blocks of the sums over each block's rows. And a sequence that starts at zero plus the first term and adds one term
  per step holds, after step n, the sum of the terms 0 … n.
-/
import Idealize.ShloMosaic.PureOps.Ideal

noncomputable section

open scoped BigOperators

namespace Cert.KernelIdeal.BlockSums

/-- Row r of block t is a row below 100000. -/
theorem row_lt (t : Fin 20) (r : Fin 5000) : 5000 * t.val + r.val < 100000 := by
  have := t.isLt
  have := r.isLt
  omega

/-- Twenty blocks of 5000 rows are 100000 rows. -/
theorem blocks_mul : 20 * 5000 = 100000 := by norm_num

/-- (t, r) ↦ 5000 · t + r, from a block number and a row within the block to the row. -/
def rowEquiv : Fin 20 × Fin 5000 ≃ Fin 100000 := finProdFinEquiv.trans (finCongr blocks_mul)

theorem rowEquiv_val (x : Fin 20 × Fin 5000) : (rowEquiv x).val = 5000 * x.1.val + x.2.val := by
  show (finCongr blocks_mul (finProdFinEquiv x)).val = _
  rw [finCongr_apply_coe, finProdFinEquiv_apply_val]
  omega

/-- The sum over the 100000 rows, block by block. -/
theorem sum_blocks {M : Type*} [AddCommMonoid M] (f : Fin 100000 → M) :
    ∑ t : Fin 20, ∑ r : Fin 5000, f ⟨5000 * t.val + r.val, row_lt t r⟩ = ∑ p : Fin 100000, f p := by
  calc ∑ t : Fin 20, ∑ r : Fin 5000, f ⟨5000 * t.val + r.val, row_lt t r⟩
      = ∑ x : Fin 20 × Fin 5000, f ⟨5000 * x.1.val + x.2.val, row_lt x.1 x.2⟩ :=
        (Fintype.sum_prod_type fun x : Fin 20 × Fin 5000 => f ⟨5000 * x.1.val + x.2.val, row_lt x.1 x.2⟩).symm
    _ = ∑ x : Fin 20 × Fin 5000, f (rowEquiv x) :=
        Finset.sum_congr rfl fun x _ => congrArg f (Fin.ext (rowEquiv_val x).symm)
    _ = ∑ p : Fin 100000, f p := Equiv.sum_comp rowEquiv f

/-- A running total: starting from zero plus the first term and adding one term per step up to step N, the value
    after step n ≤ N is the sum of the terms 0, …, n. -/
theorem running_total {M : Type*} [AddCommMonoid M] (B s : ℕ → M) (N : ℕ) (h0 : s 0 = 0 + B 0)
    (hs : ∀ n, n < N → s (n + 1) = s n + B (n + 1)) (n : ℕ) (hn : n ≤ N) :
    s n = ∑ t ∈ Finset.range (n + 1), B t := by
  induction n with
  | zero => rw [h0, zero_add, Finset.sum_range_one]
  | succ n ih => rw [hs n (by omega), ih (by omega), Finset.sum_range_succ _ (n + 1)]

/-- After the twentieth step the running total is the sum over the twenty blocks. -/
theorem running_total_twenty {M : Type*} [AddCommMonoid M] (B s : ℕ → M) (h0 : s 0 = 0 + B 0)
    (hs : ∀ n, n < 19 → s (n + 1) = s n + B (n + 1)) : s 19 = ∑ t : Fin 20, B t.val := by
  rw [running_total B s 19 h0 hs 19 le_rfl, Fin.sum_univ_eq_sum_range (fun t => B t) 20]

end Cert.KernelIdeal.BlockSums

end
-- ==== Proof.KI.ColumnTotals.lean ====
/-
  The column sums of the 100000 × 128 array, gathered block by block.

  Column c's sum over the 100000 rows is the sum, over the twenty blocks of 5000 rows, of each block's part; the same
  for the sum of squares. So a running row that starts at zero plus the first block's part and adds one block's part
  per step holds, after the twentieth step, the column's sum (or its sum of squares).
-/
import proofs.«110603_j82575041232956_1_alg».proof.Proof.BnSpec
import proofs.«110603_j82575041232956_1_alg».proof.Proof.KI.BlockSums

noncomputable section

open scoped BigOperators

namespace Cert.KernelIdeal.ColumnTotals

open Idealize.ShloMosaic Idealize.ShloMosaic.ValueIdx Cert.RefSide Cert.KernelIdeal.BlockSums

variable (a : SA.Idx → EReal) (c : Fin 128)

/-- Block t's part of column c's sum: the sum over the block's 5000 rows. -/
def blockSum (t : Fin 20) : EReal := ∑ r : Fin 5000, a (ix2 ⟨5000 * t.val + r.val, row_lt t r⟩ c)

/-- Block t's part of column c's sum of squares. -/
def blockSumSq (t : Fin 20) : EReal :=
  ∑ r : Fin 5000, a (ix2 ⟨5000 * t.val + r.val, row_lt t r⟩ c) * a (ix2 ⟨5000 * t.val + r.val, row_lt t r⟩ c)

/-- The blocks' parts add up to the column's sum. -/
theorem sum_blockSum : ∑ t : Fin 20, blockSum a c t = colSum a c :=
  sum_blocks fun p : Fin 100000 => a (ix2 p c)

/-- The blocks' parts add up to the column's sum of squares. -/
theorem sum_blockSumSq : ∑ t : Fin 20, blockSumSq a c t = colSumSq a c :=
  sum_blocks fun p : Fin 100000 => a (ix2 p c) * a (ix2 p c)

/-- A running row fed one block's part of the sum per step ends, after the twentieth step, at the column's sum. The
    parts are given as any sequence that agrees with the blocks' parts on the twenty block numbers. -/
theorem twenty_points_sum (B s : ℕ → EReal) (hB : ∀ t : Fin 20, B t.val = blockSum a c t) (h0 : s 0 = 0 + B 0)
    (hs : ∀ n, n < 19 → s (n + 1) = s n + B (n + 1)) : s 19 = colSum a c := by
  rw [running_total_twenty B s h0 hs]
  exact (Finset.sum_congr rfl fun t _ => hB t).trans (sum_blockSum a c)

/-- The same for the sum of squares. -/
theorem twenty_points_sumSq (B s : ℕ → EReal) (hB : ∀ t : Fin 20, B t.val = blockSumSq a c t) (h0 : s 0 = 0 + B 0)
    (hs : ∀ n, n < 19 → s (n + 1) = s n + B (n + 1)) : s 19 = colSumSq a c := by
  rw [running_total_twenty B s h0 hs]
  exact (Finset.sum_congr rfl fun t _ => hB t).trans (sum_blockSumSq a c)

/-- The blocks' parts as a sequence over all naturals (zero past the twentieth). -/
def blockSumN (n : ℕ) : EReal := if h : n < 20 then blockSum a c ⟨n, h⟩ else 0

/-- The blocks' parts of the sum of squares as a sequence over all naturals (zero past the twentieth). -/
def blockSumSqN (n : ℕ) : EReal := if h : n < 20 then blockSumSq a c ⟨n, h⟩ else 0

theorem blockSumN_of_lt {n : ℕ} (h : n < 20) : blockSumN a c n = blockSum a c ⟨n, h⟩ := dif_pos h

theorem blockSumSqN_of_lt {n : ℕ} (h : n < 20) : blockSumSqN a c n = blockSumSq a c ⟨n, h⟩ := dif_pos h

theorem blockSumN_val (t : Fin 20) : blockSumN a c t.val = blockSum a c t := blockSumN_of_lt a c t.isLt

theorem blockSumSqN_val (t : Fin 20) : blockSumSqN a c t.val = blockSumSq a c t := blockSumSqN_of_lt a c t.isLt

/-- The twenty-step statement with the parts spelt as that sequence. -/
theorem twenty_points_sumN (s : ℕ → EReal) (h0 : s 0 = 0 + blockSumN a c 0)
    (hs : ∀ n, n < 19 → s (n + 1) = s n + blockSumN a c (n + 1)) : s 19 = colSum a c :=
  twenty_points_sum a c (blockSumN a c) s (blockSumN_val a c) h0 hs

theorem twenty_points_sumSqN (s : ℕ → EReal) (h0 : s 0 = 0 + blockSumSqN a c 0)
    (hs : ∀ n, n < 19 → s (n + 1) = s n + blockSumSqN a c (n + 1)) : s 19 = colSumSq a c :=
  twenty_points_sumSq a c (blockSumSqN a c) s (blockSumSqN_val a c) h0 hs

end Cert.KernelIdeal.ColumnTotals

end
-- ==== Proof.KI.StatsValueB.lean ====
/-
  The statistics region's other two outputs, at the exact instance. After the last grid point the two scratch rows hold
  the column totals Σ_p a[p,c] and Σ_p a[p,c]² over all 100000 rows: the first point starts them from zero plus the
  first block's column sums, every later point adds its block's, and twenty blocks of 5000 rows are all the rows. The
  last point stores total / n and (total of squares) / n − (total / n)² into the two statistic rows, which are written
  back there and only there.
-/
import proofs.«110603_j82575041232956_1_alg».proof.Proof.KI.StatsValueA
import proofs.«110603_j82575041232956_1_alg».proof.Proof.KI.ColumnTotals

set_option maxRecDepth 16384

noncomputable section

namespace Cert.KernelIdeal.Stats

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

-- what the core's buffers hold when the region is entered, floats read as extended reals
variable (V : (c : Dev nD) → (b : Ref sig .tc) → Buf (Elt Ideal) ((c : Thread nD τ).loc b))

open Cert.RefSide Cert.KernelIdeal.ColumnTotals

/-- The array the sums run over. -/
abbrev aOf (c : Dev nD) : S100000x128.Idx → EReal := biased (V c main_v40) (V c main_v41)

theorem N20 : cfg1.N = 20 := N_1

/-- The column sums of a block of a, in the body's spelling — over a 5000×128 block `x` whose rows are the
    aggregate's rows 5000·t … and a row `b` that is the bias row — are the block's part of the column total. -/
theorem point_sum (c : Dev nD) (t : Fin cfg1.N) (q : Fin 128) (x : Vec Ideal S5000x128 .f32) (b : Vec Ideal S1x128 .f32)
    (hx : ∀ p : Fin 5000, x (ix2 p q) = V c main_v40 (ix2 ⟨5000 * t.val + p.val, row_lt t p⟩ q))
    (hb : b (ix2 0 q) = V c main_v41 (ix2 0 q)) :
    ∑ p : Fin 5000, (x (ix2 p q) + b (ix2 0 q)) = blockSum (aOf V c) q ⟨t.val, lt_of_lt_of_eq t.isLt N20⟩ := by
  unfold blockSum
  refine Finset.sum_congr rfl fun p _ => ?_
  rw [hx p, hb]
  rfl

theorem point_sumSq (c : Dev nD) (t : Fin cfg1.N) (q : Fin 128) (x : Vec Ideal S5000x128 .f32) (b : Vec Ideal S1x128 .f32)
    (hx : ∀ p : Fin 5000, x (ix2 p q) = V c main_v40 (ix2 ⟨5000 * t.val + p.val, row_lt t p⟩ q))
    (hb : b (ix2 0 q) = V c main_v41 (ix2 0 q)) :
    ∑ p : Fin 5000, (x (ix2 p q) + b (ix2 0 q)) * (x (ix2 p q) + b (ix2 0 q)) = blockSumSq (aOf V c) q ⟨t.val, lt_of_lt_of_eq t.isLt N20⟩ := by
  unfold blockSumSq
  refine Finset.sum_congr rfl fun p _ => ?_
  rw [hx p, hb]
  rfl

/-- Column `q` of the two scratch rows after point `n`, as sequences on the naturals. -/
def runSum (c : Dev nD) (q : Fin 128) (n : ℕ) : EReal := if h : n < cfg1.N then ((sums V c n h).1 (ix2 0 q) : EReal) else 0
def runSq (c : Dev nD) (q : Fin 128) (n : ℕ) : EReal := if h : n < cfg1.N then ((sums V c n h).2 (ix2 0 q) : EReal) else 0

theorem runSum_zero (c : Dev nD) (q : Fin 128) : runSum V c q 0 = 0 + blockSumN (aOf V c) q 0 := by
  have h0 : 0 < cfg1.N := by rw [N20]; omega
  unfold runSum; rw [dif_pos h0]
  rw [blockSumN_of_lt (aOf V c) q (by omega : 0 < 20)]
  show (k1_pay4 (F := Ideal) (blk V c 0 ⟨0, h0⟩) (blk V c 1 ⟨0, h0⟩) (k1_pay1 (F := Ideal)) (ix2 0 q) : EReal) = _
  refine (PayloadsAt.sum_at (blk V c 0 ⟨0, h0⟩) (blk V c 1 ⟨0, h0⟩) (k1_pay1 (F := Ideal)) q).trans ?_
  exact congrArg₂ (· + ·) (PayloadsAt.zero_sum_at q) (point_sum V c ⟨0, h0⟩ q (blk V c 0 ⟨0, h0⟩) (blk V c 1 ⟨0, h0⟩) (fun p => agg_block_at V c ⟨0, h0⟩ p q) (bias_block_at V c ⟨0, h0⟩ q))

theorem runSum_succ (c : Dev nD) (q : Fin 128) (n : ℕ) (hn : n < 19) : runSum V c q (n + 1) = runSum V c q n + blockSumN (aOf V c) q (n + 1) := by
  have h1 : n + 1 < cfg1.N := by rw [N20]; omega
  have h0 : n < cfg1.N := by rw [N20]; omega
  unfold runSum; rw [dif_pos h1, dif_pos h0]
  rw [blockSumN_of_lt (aOf V c) q (by omega : n + 1 < 20)]
  show (k1_pay4 (F := Ideal) (blk V c 0 ⟨n + 1, h1⟩) (blk V c 1 ⟨n + 1, h1⟩) (sums V c n (Nat.lt_of_succ_lt h1)).1 (ix2 0 q) : EReal) = _
  refine (PayloadsAt.sum_at (blk V c 0 ⟨n + 1, h1⟩) (blk V c 1 ⟨n + 1, h1⟩) (sums V c n (Nat.lt_of_succ_lt h1)).1 q).trans ?_
  exact congrArg (_ + ·) (point_sum V c ⟨n + 1, h1⟩ q (blk V c 0 ⟨n + 1, h1⟩) (blk V c 1 ⟨n + 1, h1⟩) (fun p => agg_block_at V c ⟨n + 1, h1⟩ p q) (bias_block_at V c ⟨n + 1, h1⟩ q))

theorem runSq_zero (c : Dev nD) (q : Fin 128) : runSq V c q 0 = 0 + blockSumSqN (aOf V c) q 0 := by
  have h0 : 0 < cfg1.N := by rw [N20]; omega
  unfold runSq; rw [dif_pos h0]
  rw [blockSumSqN_of_lt (aOf V c) q (by omega : 0 < 20)]
  show (k1_pay5 (F := Ideal) (blk V c 0 ⟨0, h0⟩) (blk V c 1 ⟨0, h0⟩) (k1_pay2 (F := Ideal)) (ix2 0 q) : EReal) = _
  refine (PayloadsAt.sumsq_at (blk V c 0 ⟨0, h0⟩) (blk V c 1 ⟨0, h0⟩) (k1_pay2 (F := Ideal)) q).trans ?_
  exact congrArg₂ (· + ·) (PayloadsAt.zero_sq_at q) (point_sumSq V c ⟨0, h0⟩ q (blk V c 0 ⟨0, h0⟩) (blk V c 1 ⟨0, h0⟩) (fun p => agg_block_at V c ⟨0, h0⟩ p q) (bias_block_at V c ⟨0, h0⟩ q))

theorem runSq_succ (c : Dev nD) (q : Fin 128) (n : ℕ) (hn : n < 19) : runSq V c q (n + 1) = runSq V c q n + blockSumSqN (aOf V c) q (n + 1) := by
  have h1 : n + 1 < cfg1.N := by rw [N20]; omega
  have h0 : n < cfg1.N := by rw [N20]; omega
  unfold runSq; rw [dif_pos h1, dif_pos h0]
  rw [blockSumSqN_of_lt (aOf V c) q (by omega : n + 1 < 20)]
  show (k1_pay5 (F := Ideal) (blk V c 0 ⟨n + 1, h1⟩) (blk V c 1 ⟨n + 1, h1⟩) (sums V c n (Nat.lt_of_succ_lt h1)).2 (ix2 0 q) : EReal) = _
  refine (PayloadsAt.sumsq_at (blk V c 0 ⟨n + 1, h1⟩) (blk V c 1 ⟨n + 1, h1⟩) (sums V c n (Nat.lt_of_succ_lt h1)).2 q).trans ?_
  exact congrArg (_ + ·) (point_sumSq V c ⟨n + 1, h1⟩ q (blk V c 0 ⟨n + 1, h1⟩) (blk V c 1 ⟨n + 1, h1⟩) (fun p => agg_block_at V c ⟨n + 1, h1⟩ p q) (bias_block_at V c ⟨n + 1, h1⟩ q))

/-- After the last point the scratch rows hold the column totals. -/
theorem total_sum (c : Dev nD) (q : Fin 128) (h : 19 < cfg1.N) : ((sums V c 19 h).1 (ix2 0 q) : EReal) = colSum (aOf V c) q := by
  have := twenty_points_sumN (aOf V c) q (runSum V c q) (runSum_zero V c q) (runSum_succ V c q)
  unfold runSum at this; rwa [dif_pos h] at this
theorem total_sumSq (c : Dev nD) (q : Fin 128) (h : 19 < cfg1.N) : ((sums V c 19 h).2 (ix2 0 q) : EReal) = colSumSq (aOf V c) q := by
  have := twenty_points_sumSqN (aOf V c) q (runSq V c q) (runSq_zero V c q) (runSq_succ V c q)
  unfold runSq at this; rwa [dif_pos h] at this

/-! ## The two statistic rows -/

def meanRow (a : S100000x128.Idx → EReal) : S1x128.Idx → EReal := fun i => colMean a (i 1)
def varRow (a : S100000x128.Idx → EReal) : S1x128.Idx → EReal := fun i => varOfSquares a (i 1)

theorem last_of_flush_mean (t : Fin cfg1.N) (hf : (cfg1.win 3).flush t = true) : t.val = 19 := by
  have := (flush1_3 t).mp hf; have := lt_of_lt_of_eq t.isLt N20; omega
theorem last_of_flush_var (t : Fin cfg1.N) (hf : (cfg1.win 4).flush t = true) : t.val = 19 := by
  have := (flush1_4 t).mp hf; have := lt_of_lt_of_eq t.isLt N20; omega

theorem flushed_mean (c : Dev nD) (t : Fin cfg1.N) (hf : (cfg1.win 3).flush t = true) :
    (dat V c).flushed 3 t = ((cfg1.win 3).blk t).view.read (Elt Ideal) (meanRow (aOf V c)) := by
  have ht : t.val = 19 := last_of_flush_mean t hf
  obtain ⟨n, hn⟩ := t
  obtain rfl : n = 19 := ht
  show (cfg1.win 3).cut (grid1.coords ⟨19, hn⟩) ((dat V c).after 3 ⟨19, hn⟩) = _
  rw [after_mean]
  obtain ⟨-, -, -, -, -, -, e6, e7, -⟩ := blocks_at ⟨19, hn⟩
  funext j
  obtain ⟨z, q, rfl⟩ : ∃ (z : Fin 1) (q : Fin 128), j = ix2 z q := ⟨j 0, j 1, eq_ix2 j⟩
  obtain rfl : z = 0 := Subsingleton.elim _ _
  show k1_pay6 (F := Ideal) (sums V c 19 hn).1 (ix2 0 q) = meanRow (aOf V c) (((cfg1.win 3).blk ⟨19, hn⟩).view.emb (ix2 0 q))
  refine (PayloadsAt.mean_at (sums V c 19 hn).1 q).trans ?_
  rw [total_sum V c q hn]
  have hi : ((cfg1.win 3).blk ⟨19, hn⟩).view.emb (ix2 0 q) = ix2 0 q := by
    funext a; apply Fin.ext
    match a with
    | ⟨0, _⟩ => show win1_3.index ⟨19, hn⟩ (0 : Fin 2) * 1 + 1 * 0 = 0; omega
    | ⟨1, _⟩ => show win1_3.index ⟨19, hn⟩ (1 : Fin 2) * 128 + 1 * q.val = q.val; omega
  rw [hi]
  rfl

theorem flushed_var (c : Dev nD) (t : Fin cfg1.N) (hf : (cfg1.win 4).flush t = true) :
    (dat V c).flushed 4 t = ((cfg1.win 4).blk t).view.read (Elt Ideal) (varRow (aOf V c)) := by
  have ht : t.val = 19 := last_of_flush_var t hf
  obtain ⟨n, hn⟩ := t
  obtain rfl : n = 19 := ht
  show (cfg1.win 4).cut (grid1.coords ⟨19, hn⟩) ((dat V c).after 4 ⟨19, hn⟩) = _
  rw [after_var]
  obtain ⟨-, -, -, -, -, -, -, -, e8, e9⟩ := blocks_at ⟨19, hn⟩
  funext j
  obtain ⟨z, q, rfl⟩ : ∃ (z : Fin 1) (q : Fin 128), j = ix2 z q := ⟨j 0, j 1, eq_ix2 j⟩
  obtain rfl : z = 0 := Subsingleton.elim _ _
  show k1_pay7 (F := Ideal) (sums V c 19 hn).1 (sums V c 19 hn).2 (ix2 0 q) = varRow (aOf V c) (((cfg1.win 4).blk ⟨19, hn⟩).view.emb (ix2 0 q))
  refine (PayloadsAt.var_at (sums V c 19 hn).1 (sums V c 19 hn).2 q).trans ?_
  rw [total_sum V c q hn, total_sumSq V c q hn]
  have hi : ((cfg1.win 4).blk ⟨19, hn⟩).view.emb (ix2 0 q) = ix2 0 q := by
    funext a; apply Fin.ext
    match a with
    | ⟨0, _⟩ => show win1_4.index ⟨19, hn⟩ (0 : Fin 2) * 1 + 1 * 0 = 0; omega
    | ⟨1, _⟩ => show win1_4.index ⟨19, hn⟩ (1 : Fin 2) * 128 + 1 * q.val = q.val; omega
  rw [hi]
  rfl

theorem mem_block_mean (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v44_1).slice (win1_3.rect t)).set ↔ _
  rw [View.set_slice_whole, Rect.mem_set_unit]
  exact Iff.rfl
theorem mem_block_var (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v44_2).slice (win1_4.rect t)).set ↔ _
  rw [View.set_slice_whole, Rect.mem_set_unit]
  exact Iff.rfl

theorem covered_mean (i : S1x128.Idx) : ∃ t : Fin cfg1.N, (cfg1.win 3).flush t = true ∧ i ∈ ((cfg1.win 3).blk t).view.set := by
  have hi0 : (i 0).val < 1 := (i 0).isLt
  have hi1 : (i 1).val < 128 := (i 1).isLt
  have h19 : 19 < cfg1.N := by rw [N20]; omega
  obtain ⟨-, -, -, -, -, -, e6, e7, -⟩ := blocks_at ⟨19, h19⟩
  refine ⟨⟨19, h19⟩, (flush1_3 _).mpr rfl, ?_⟩
  rw [mem_block_mean]
  intro a
  match a with
  | ⟨0, _⟩ => show win1_3.index ⟨19, h19⟩ (0 : Fin 2) * 1 ≤ (i 0).val ∧ (i 0).val < win1_3.index ⟨19, h19⟩ (0 : Fin 2) * 1 + 1; omega
  | ⟨1, _⟩ => show win1_3.index ⟨19, h19⟩ (1 : Fin 2) * 128 ≤ (i 1).val ∧ (i 1).val < win1_3.index ⟨19, h19⟩ (1 : Fin 2) * 128 + 128; omega
theorem covered_var (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  have h19 : 19 < cfg1.N := by rw [N20]; omega
  obtain ⟨-, -, -, -, -, -, -, -, e8, e9⟩ := blocks_at ⟨19, h19⟩
  refine ⟨⟨19, h19⟩, (flush1_4 _).mpr rfl, ?_⟩
  rw [mem_block_var]
  intro a
  match a with
  | ⟨0, _⟩ => show win1_4.index ⟨19, h19⟩ (0 : Fin 2) * 1 ≤ (i 0).val ∧ (i 0).val < win1_4.index ⟨19, h19⟩ (0 : Fin 2) * 1 + 1; omega
  | ⟨1, _⟩ => show win1_4.index ⟨19, h19⟩ (1 : Fin 2) * 128 ≤ (i 1).val ∧ (i 1).val < win1_4.index ⟨19, h19⟩ (1 : Fin 2) * 128 + 128; omega

/-- THE MEAN ROW after the region: the column means of a. -/
theorem mean_final (c : Dev nD) : (dat V c).arrAt 3 cfg1.N = meanRow (aOf V c) :=
  (dat V c).arrAt_eq_of_cover 3 _ (fun t hf => flushed_mean V c t hf) covered_mean
/-- THE VARIANCE ROW after the region: mean of squares minus squared mean, column by column. -/
theorem var_final (c : Dev nD) : (dat V c).arrAt 4 cfg1.N = varRow (aOf V c) :=
  (dat V c).arrAt_eq_of_cover 4 _ (fun t hf => flushed_var V c t hf) covered_var

end Cert.KernelIdeal.Stats

end
-- ==== Proof.KI.NormalizeValue.lean ====
/-
  The third region's output, at the exact instance: y[p, c] = max((γ[c] · (a[p, c] − μ[c])) · rsqrt(σ²[c] + ε) + β[c], 0),
  where a is the 100000 × 128 array the region finds in its first window and μ, σ², γ, β the 1 × 128 rows in its next
  four. Grid point t reads rows 5000·t … 5000·t + 4999 of a and the four rows whole, and writes back the same rows of
  y; the twenty blocks tile the rows. With the rows holding the column means and the mean-of-squares-minus-squared-mean
  variances of a, y is the batch normalisation of a in that arrangement.
-/
import proofs.«110603_j82575041232956_1_alg».proof.Proof.KI.Normalize
import proofs.«110603_j82575041232956_1_alg».proof.Proof.KI.PayloadsAt
import proofs.«110603_j82575041232956_1_alg».proof.Proof.BnSpec
import Idealize.ShloMosaic.Lib.Pipeline.Value
import Idealize.ShloMosaic.Lib.ValueIdx

set_option maxRecDepth 16384

noncomputable section

namespace Cert.KernelIdeal.Normalize

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.RefSide

-- what the core's buffers hold when the region is entered, floats read as extended reals
variable (V : (c : Dev nD) → (b : Ref sig .tc) → Buf (Elt Ideal) ((c : Thread nD τ).loc b))

/-- Normalised, scaled, shifted and rectified, entry by entry: the rows are read at the entry's column. -/
def rectified (a : S100000x128.Idx → EReal) (mu v g be : S1x128.Idx → EReal) : S100000x128.Idx → EReal :=
  fun i => max ((g (ix2 0 (i 1)) * (a i - mu (ix2 0 (i 1)))) * Ideal.rsqrt (v (ix2 0 (i 1)) + bnEps)
    + be (ix2 0 (i 1))) 0

/-- The origin of a rank-2 buffer. -/
theorem origin2 : (![0, 0] : Fin 2 → ℕ) = fun _ => 0 := by
  funext a
  match a with
  | ⟨0, _⟩ => rfl
  | ⟨1, _⟩ => rfl

/-- Where the windows' blocks sit at point `t`: a's block and y's block at row block `t`; the four rows whole. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem row_lt (t : Fin cfg2.N) (r : Fin 5000) : 5000 * t.val + r.val < 100000 := by
  have hN : cfg2.N = 20 := N_2
  have := t.isLt; have := r.isLt; omega

/-- An entry of a's block at point `t` is a's entry 5000·t rows further down. -/
theorem a_block_at (c : Dev nD) (t : Fin cfg2.N) (r : Fin 5000) (q : Fin 128) :
    blk V c 0 t (ix2 r q) = V c main_v44_0 (ix2 ⟨5000 * t.val + r.val, row_lt t r⟩ q) := by
  have e := blocks_at t
  show V c main_v44_0 (((cfg2.win 0).blk t).view.emb (ix2 r q)) = _
  refine congrArg _ (funext fun a => Fin.ext ?_)
  match a with
  | ⟨0, _⟩ => show win2_0.index t (0 : Fin 2) * 5000 + 1 * r.val = 5000 * t.val + r.val; omega
  | ⟨1, _⟩ => show win2_0.index t (1 : Fin 2) * 128 + 1 * q.val = q.val; omega

/-- The row of means' block is the row of means. -/
theorem mean_block_at (c : Dev nD) (t : Fin cfg2.N) (q : Fin 128) :
    blk V c 1 t (ix2 (0 : Fin 1) q) = V c main_v44_1 (ix2 (0 : Fin 1) q) := by
  have e := blocks_at t
  show V c main_v44_1 (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- The row of variances' block is the row of variances. -/
theorem var_block_at (c : Dev nD) (t : Fin cfg2.N) (q : Fin 128) :
    blk V c 2 t (ix2 (0 : Fin 1) q) = V c main_v44_2 (ix2 (0 : Fin 1) q) := by
  have e := blocks_at t
  show V c main_v44_2 (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- The row of scales' block is the row of scales. -/
theorem gamma_block_at (c : Dev nD) (t : Fin cfg2.N) (q : Fin 128) :
    blk V c 3 t (ix2 (0 : Fin 1) q) = V c main_v42 (ix2 (0 : Fin 1) q) := by
  have e := blocks_at t
  show V c main_v42 (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The row of shifts' block is the row of shifts. -/
theorem beta_block_at (c : Dev nD) (t : Fin cfg2.N) (q : Fin 128) :
    blk V c 4 t (ix2 (0 : Fin 1) q) = V c main_v43 (ix2 (0 : Fin 1) q) := by
  have e := blocks_at t
  show V c main_v43 (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- Where an entry of y's block at point `t` sits in y. -/
theorem y_block_emb (t : Fin cfg2.N) (p : Fin 5000) (q : Fin 128) :
    ((cfg2.win 5).blk t).view.emb (ix2 p q) = ix2 ⟨5000 * t.val + p.val, row_lt t p⟩ q := by
  have e := blocks_at t
  funext a; apply Fin.ext
  match a with
  | ⟨0, _⟩ => show win2_5.index t (0 : Fin 2) * 5000 + 1 * p.val = 5000 * t.val + p.val; omega
  | ⟨1, _⟩ => show win2_5.index t (1 : Fin 2) * 128 + 1 * q.val = q.val; omega

/-- What point `t` writes back into y is block `t` of the normalised and rectified array. -/
theorem flushed_y (c : Dev nD) (t : Fin cfg2.N) :
    (dat V c).flushed 5 t = ((cfg2.win 5).blk t).view.read (Elt Ideal)
      (rectified (V c main_v44_0) (V c main_v44_1) (V c main_v44_2) (V c main_v42) (V c main_v43)) := by
  show (cfg2.win 5).cut (grid2.coords t) ((dat V c).after 5 t) = _
  rw [after_y]
  funext j
  obtain ⟨p, q, rfl⟩ : ∃ (p : Fin 5000) (q : Fin 128), j = ix2 p q := ⟨j 0, j 1, eq_ix2 j⟩
  show normalized (blk V c 0 t) (blk V c 1 t) (blk V c 2 t) (blk V c 3 t) (blk V c 4 t) (ix2 p q)
    = rectified (V c main_v44_0) (V c main_v44_1) (V c main_v44_2) (V c main_v42) (V c main_v43)
        (((cfg2.win 5).blk t).view.emb (ix2 p q))
  unfold normalized
  rw [View.canon_unit_zero origin2]
  simp only [View.ld_unit_zero (S := S5000x128) origin2, View.ld_unit_zero (S := S1x128) origin2]
  refine (PayloadsAt.normalized_at (blk V c 0 t) (blk V c 1 t) (blk V c 2 t) (blk V c 3 t) (blk V c 4 t) p q).trans ?_
  rw [a_block_at V c t p q, mean_block_at V c t q, var_block_at V c t q, gamma_block_at V c t q,
    beta_block_at V c t q, y_block_emb t p q]
  rfl

theorem mem_block_y (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v45).slice (win2_5.rect t)).set ↔ _
  rw [View.set_slice_whole, Rect.mem_set_unit]
  exact Iff.rfl

theorem covered_y (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, -, -, e10, e11⟩ := blocks_at ⟨(i 0).val / 5000, ht⟩
  refine ⟨⟨(i 0).val / 5000, ht⟩, flush2_5 _, ?_⟩
  rw [mem_block_y]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e11]; omega

/-- THE ARRAY y after the region: the normalised and rectified a, with the four rows as the region finds them. -/
theorem y_final (c : Dev nD) : (dat V c).arrAt 5 cfg2.N
    = rectified (V c main_v44_0) (V c main_v44_1) (V c main_v44_2) (V c main_v42) (V c main_v43) :=
  (dat V c).arrAt_eq_of_cover 5 _ (fun t _ => flushed_y V c t) covered_y

/-- With the rows holding the column means and the mean-of-squares-minus-squared-mean variances of a, and the scales
    and shifts γ, β, the rectified array is the batch normalisation of a in that arrangement. -/
theorem rectified_eq_bnKernel (a : S100000x128.Idx → EReal) (γ β : Fin 128 → EReal) :
    rectified a (fun i => colMean a (i 1)) (fun i => varOfSquares a (i 1)) (fun i => γ (i 1)) (fun i => β (i 1))
      = bnKernel a γ β := by
  funext i
  obtain ⟨p, q, rfl⟩ : ∃ (p : Fin 100000) (q : Fin 128), i = ix2 p q := ⟨i 0, i 1, eq_ix2 i⟩
  rfl

end Cert.KernelIdeal.Normalize

end
-- ==== Proof.KI.Stages.lean ====
/-
  The two stretches of host operations, read against the reference's own operations. The kernel's program computes the
  edge lists (each row of the edge index joined with 0 … n−1, so that every node has a self-loop), the degrees, their
  inverse square roots gathered at both ends of every edge, and — after the first region — the gather of rows of h, the
  scaling by the edge weights and the scatter-add by destination, with exactly the operations the reference applies: the
  two terms are the same term, the kernel's over whatever its first region left in the h buffer. Stated over an
  arbitrary valuation of the buffers, so that nothing about how the buffers came to hold their contents is unfolded.
-/
import proofs.«110603_j82575041232956_1_alg».proof.Proof.Gen.KernelIdeal.Launch
import proofs.«110603_j82575041232956_1_alg».proof.Proof.Gen.ReferenceIdeal.Read
import Idealize.ShloMosaic.Lib.StableHlo.Run

set_option maxRecDepth 16384

noncomputable section

namespace Cert.KernelIdeal.Stages

open Idealize.ShloMosaic Idealize.ShloMosaic.TcCoe
open Idealize.SL Idealize.SL.Sem
open Cert.KernelIdeal Cert.KernelIdeal.Gen

variable (W : Valuation τ sig (Elt Ideal))

/-- The sources of the edges, self-loops appended. -/
theorem sources : StableHlo.after hostOps0 W (Proc.devRef .tc main_v3) = Cert.ReferenceIdeal.Read.val_main_v3 (F := Ideal) (W (Proc.devRef .tc main_arg5)) := by
  after_results
  unfold Cert.ReferenceIdeal.Read.val_main_v3 Cert.ReferenceIdeal.Read.val_main_v2 Cert.ReferenceIdeal.Read.val_main_v1 Cert.ReferenceIdeal.Read.val_main_v0
  rfl

/-- The destinations of the edges, self-loops appended. -/
theorem destinations : StableHlo.after hostOps0 W (Proc.devRef .tc main_v6) = Cert.ReferenceIdeal.Read.val_main_v6 (F := Ideal) (W (Proc.devRef .tc main_arg5)) := by
  after_results
  unfold Cert.ReferenceIdeal.Read.val_main_v6 Cert.ReferenceIdeal.Read.val_main_v5 Cert.ReferenceIdeal.Read.val_main_v4 Cert.ReferenceIdeal.Read.val_main_v0
  rfl

set_option maxHeartbeats 4000000 in
/-- The edge weights deg(src)^(−1/2) · deg(dst)^(−1/2). -/
theorem weights : StableHlo.after hostOps0 W (Proc.devRef .tc main_v26) = Cert.ReferenceIdeal.Read.val_main_v26 (F := Ideal) (W (Proc.devRef .tc main_arg5)) := by
  after_results
  rfl

set_option maxHeartbeats 4000000 in
/-- The aggregate: rows of h gathered at the sources, scaled by the edge weights, scatter-added at the destinations. -/
theorem aggregate (x0 : (⟨Cert.ReferenceIdeal.S100000x128, .f32⟩ : BufTy).Contents (Elt Ideal)) (x1 : (⟨Cert.ReferenceIdeal.S128x128, .f32⟩ : BufTy).Contents (Elt Ideal))
    (x5 : (⟨Cert.ReferenceIdeal.S2x800000, .i32⟩ : BufTy).Contents (Elt Ideal))
    (hh : W (Proc.devRef .tc main_v27) = Cert.ReferenceIdeal.Read.val_main_v27 (F := Ideal) x0 x1)
    (hs : W (Proc.devRef .tc main_v3) = Cert.ReferenceIdeal.Read.val_main_v3 (F := Ideal) x5)
    (hd : W (Proc.devRef .tc main_v6) = Cert.ReferenceIdeal.Read.val_main_v6 (F := Ideal) x5)
    (hw : W (Proc.devRef .tc main_v26) = Cert.ReferenceIdeal.Read.val_main_v26 (F := Ideal) x5) :
    StableHlo.after hostOps1 W (Proc.devRef .tc main_v40) = Cert.ReferenceIdeal.Read.val_main_v40 (F := Ideal) x0 x1 x5 := by
  after_results
  rw [hh, hs, hd, hw]
  rfl

/-- The bias, the scale and the shift, each recast from 128 entries to one row of 128. -/
theorem bias_row : StableHlo.after hostOps1 W (Proc.devRef .tc main_v41) = shapeCast S1x128 (W (Proc.devRef .tc main_arg2)) shapeCasts_S128_S1x128 := by
  after_results
  rfl
theorem gamma_row : StableHlo.after hostOps1 W (Proc.devRef .tc main_v42) = shapeCast S1x128 (W (Proc.devRef .tc main_arg3)) shapeCasts_S128_S1x128 := by
  after_results
  rfl
theorem beta_row : StableHlo.after hostOps1 W (Proc.devRef .tc main_v43) = shapeCast S1x128 (W (Proc.devRef .tc main_arg4)) shapeCasts_S128_S1x128 := by
  after_results
  rfl

end Cert.KernelIdeal.Stages

end
-- ==== Proof.KI.Bridges.lean ====
/-
  Four bridges between the kernel's arrays and the reference's stages, entry by entry over the extended reals.

  The kernel's matrix product Σ_k x(p,k) · w(k,c) is the reference's product stage; a vector of 128 recast as a 1 × 128
  row reads, at (0, q), its entry q; the kernel's "aggregate plus bias row" of the reference's scattered sum and the
  recast bias is the reference's aggregate; and the kernel's normalised array, when its mean and variance rows hold
  the column means and the mean-of-squares-minus-squared-mean variances and its scale and shift rows are recast
  vectors, is the batch normalisation in that arrangement with the vectors read entry by entry.
-/
import proofs.«110603_j82575041232956_1_alg».proof.Proof.KI.ProjectValue
import proofs.«110603_j82575041232956_1_alg».proof.Proof.KI.StatsValueA
import proofs.«110603_j82575041232956_1_alg».proof.Proof.KI.NormalizeValue
import proofs.«110603_j82575041232956_1_alg».proof.Proof.Gen.ReferenceIdeal.Read
import proofs.«110603_j82575041232956_1_alg».proof.Proof.BnSpec
import Idealize.ShloMosaic.Lib.ValueLayout
import Idealize.ShloMosaic.Lib.ValueIdx

noncomputable section

open scoped BigOperators

namespace Cert.KernelIdeal.Bridges

open Idealize.ShloMosaic Idealize.ShloMosaic.ValueIdx
open Cert.KernelIdeal Cert.KernelIdeal.Gen Cert.RefSide

/-- (1) The matrix product, entry by entry, is the reference's product stage: at entry i and contraction position k
    the reference reads x at (i 0, k) and w at (k, i 1). -/
theorem matProduct_eq_ref (x0 : (⟨S100000x128, .f32⟩ : BufTy).Contents (Elt Ideal))
    (x1 : (⟨S128x128, .f32⟩ : BufTy).Contents (Elt Ideal)) :
    Project.matProduct x0 x1 = Cert.ReferenceIdeal.Read.val_main_v27 (F := Ideal) x0 x1 := by
  funext i
  rw [Cert.ReferenceIdeal.Read.val_main_v27_apply]
  unfold Project.matProduct
  refine Finset.sum_congr rfl fun k _ => ?_
  have el : Cert.ReferenceIdeal.Read.lidx_main_v27 i k = ix2 (i 0) k :=
    funext fun a => Fin.ext (by match a with | ⟨0, _⟩ => rfl | ⟨1, _⟩ => rfl)
  have er : Cert.ReferenceIdeal.Read.ridx_main_v27 i k = ix2 k (i 1) :=
    funext fun a => Fin.ext (by match a with | ⟨0, _⟩ => rfl | ⟨1, _⟩ => rfl)
  rw [el, er]
  rfl

/-- (2) A vector of 128 recast as a 1 × 128 row reads, at (0, q), its entry q. -/
theorem row_of_reshape (x : (⟨S128, .f32⟩ : BufTy).Contents (Elt Ideal)) (q : Fin 128) :
    shapeCast S1x128 x shapeCasts_S128_S1x128 (ix2 (0 : Fin 1) q) = x (ix1 q) :=
  shapeCast_a_1a_apply x shapeCasts_S128_S1x128 (0 : Fin 1) q

/-- The recast row as a function of the index: its entry at the index's column. -/
theorem row_fun (x : (⟨S128, .f32⟩ : BufTy).Contents (Elt Ideal)) :
    shapeCast S1x128 x shapeCasts_S128_S1x128 = fun i => x (ix1 (i 1)) := by
  funext i
  obtain ⟨u, q, rfl⟩ : ∃ (u : Fin 1) (q : Fin 128), i = ix2 u q := ⟨i 0, i 1, eq_ix2 i⟩
  exact shapeCast_a_1a_apply x shapeCasts_S128_S1x128 u q

/-- (3) The reference's scattered sum plus the recast bias row is the reference's aggregate. -/
theorem biased_eq_ref (x0 : (⟨S100000x128, .f32⟩ : BufTy).Contents (Elt Ideal))
    (x1 : (⟨S128x128, .f32⟩ : BufTy).Contents (Elt Ideal)) (x2 : (⟨S128, .f32⟩ : BufTy).Contents (Elt Ideal))
    (x5 : (⟨S2x800000, .i32⟩ : BufTy).Contents (Elt Ideal)) :
    Stats.biased (Cert.ReferenceIdeal.Read.val_main_v40 (F := Ideal) x0 x1 x5) (shapeCast S1x128 x2 shapeCasts_S128_S1x128)
      = Cert.ReferenceIdeal.Read.val_main_v43 (F := Ideal) x0 x1 x2 x5 := by
  funext i
  rw [Cert.ReferenceIdeal.Read.val_main_v43_apply, Cert.ReferenceIdeal.Read.val_main_v42_apply,
    Cert.ReferenceIdeal.Read.val_main_v41_apply]
  unfold Stats.biased
  have ei : ix1 (i 1) = Cert.ReferenceIdeal.Read.idx_main_v41 (Cert.ReferenceIdeal.Read.idx_main_v42 i) :=
    funext fun a => Fin.ext (by match a with | ⟨0, _⟩ => rfl)
  exact congrArg (Cert.ReferenceIdeal.Read.val_main_v40 (F := Ideal) x0 x1 x5 i + ·)
    ((row_of_reshape x2 (i 1)).trans (congrArg x2 ei))

/-- (4) The normalised array, with the mean and variance rows holding the column means and variances of a and the
    scale and shift rows recast vectors, is the batch normalisation of a with the vectors read entry by entry. -/
theorem rectified_rows (a : S100000x128.Idx → EReal) (mu v : S1x128.Idx → EReal)
    (g be : (⟨S128, .f32⟩ : BufTy).Contents (Elt Ideal)) (hmu : mu = fun i => colMean a (i 1))
    (hv : v = fun i => varOfSquares a (i 1)) :
    Normalize.rectified a mu v (shapeCast S1x128 g shapeCasts_S128_S1x128) (shapeCast S1x128 be shapeCasts_S128_S1x128)
      = bnKernel a (fun c => g (ix1 c)) (fun c => be (ix1 c)) := by
  subst hmu hv
  rw [row_fun g, row_fun be]
  exact Normalize.rectified_eq_bnKernel a (fun c => g (ix1 c)) (fun c => be (ix1 c))

end Cert.KernelIdeal.Bridges

end
-- ==== Proof.KI.Result.lean ====
/-
  The kernel's result array, at the exact instance, as one function of the argument arrays: following the buffers from
  the launch through the two host stretches and the three regions,
    h = x · W  (the reference's product, entry by entry a sum over 128 terms),
    aggregate = the reference's gather / scale / scatter-add of h (the same operations applied to the same h),
    a = aggregate + b, the mean row and the variance row its column statistics over all 100000 rows,
    result = max(γ · (a − mean) · (variance + ε)^(−1/2) + β, 0),
  that is, the batch normalisation of the reference's own array a in the mean-of-squares-minus-squared-mean arrangement.
-/
import proofs.«110603_j82575041232956_1_alg».proof.Proof.KI.Run
import proofs.«110603_j82575041232956_1_alg».proof.Proof.KI.ProjectValue
import proofs.«110603_j82575041232956_1_alg».proof.Proof.KI.StatsValueB
import proofs.«110603_j82575041232956_1_alg».proof.Proof.KI.NormalizeValue
import proofs.«110603_j82575041232956_1_alg».proof.Proof.KI.Stages
import proofs.«110603_j82575041232956_1_alg».proof.Proof.KI.Bridges

set_option maxRecDepth 16384

noncomputable section

namespace Cert.KernelIdeal.Whole

open Idealize.ShloMosaic Idealize.ShloMosaic.TcCoe
open Idealize.SL Idealize.SL.Sem
open Idealize.ShloMosaic.ValueIdx
open Cert.KernelIdeal Cert.KernelIdeal.Gen Cert.RefSide

variable (m : (ℓ : Loc nD τ sig) → Buf (Elt Ideal) ℓ) (c : Dev nD)

/-- The argument arrays as launched. -/
abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)

/-- The first host stretch writes no argument. -/
theorem first_keeps (r : Ref sig .tc) (h : r ∉ hostOps0_W) : W1 m c (Proc.devRef .tc r) = m ((c : Thread nD τ).loc r) :=
  (StableHlo.after_of_writes_sub hostOps0 _ hostOps0_writes h).trans rfl

/-- After the first region the h buffer holds the reference's matrix product of the arguments. -/
theorem h_is_ref : W2 m c (Proc.devRef .tc main_v27) = Cert.ReferenceIdeal.Read.val_main_v27 (F := Ideal) (X0 m c) (X1 m c) :=
  (W2_arr m c 2).trans <| (Project.h_final (V1 m) c).trans <|
    (congrArg₂ Project.matProduct (first_keeps m c main_arg0 (by decide)) (first_keeps m c main_arg1 (by decide))).trans
      (Bridges.matProduct_eq_ref _ _)

/-- The first region leaves the edge lists and the edge weights as the first stretch made them. -/
theorem sources2 : W2 m c (Proc.devRef .tc main_v3) = Cert.ReferenceIdeal.Read.val_main_v3 (F := Ideal) (X5 m c) :=
  (W2_of_ne m c main_v3 (by decide)).trans (Stages.sources (W0 m c))
theorem destinations2 : W2 m c (Proc.devRef .tc main_v6) = Cert.ReferenceIdeal.Read.val_main_v6 (F := Ideal) (X5 m c) :=
  (W2_of_ne m c main_v6 (by decide)).trans (Stages.destinations (W0 m c))
theorem weights2 : W2 m c (Proc.devRef .tc main_v26) = Cert.ReferenceIdeal.Read.val_main_v26 (F := Ideal) (X5 m c) :=
  (W2_of_ne m c main_v26 (by decide)).trans (Stages.weights (W0 m c))
theorem arg2_2 : W2 m c (Proc.devRef .tc main_arg2) = X2 m c :=
  (W2_of_ne m c main_arg2 (by decide)).trans (first_keeps m c main_arg2 (by decide))
theorem arg3_2 : W2 m c (Proc.devRef .tc main_arg3) = X3 m c :=
  (W2_of_ne m c main_arg3 (by decide)).trans (first_keeps m c main_arg3 (by decide))
theorem arg4_2 : W2 m c (Proc.devRef .tc main_arg4) = X4 m c :=
  (W2_of_ne m c main_arg4 (by decide)).trans (first_keeps m c main_arg4 (by decide))

/-- After the second host stretch: the reference's aggregate, and the three rows. -/
theorem aggregate3 : W3 m c (Proc.devRef .tc main_v40) = Cert.ReferenceIdeal.Read.val_main_v40 (F := Ideal) (X0 m c) (X1 m c) (X5 m c) :=
  Stages.aggregate (W2 m c) _ _ _ (h_is_ref m c) (sources2 m c) (destinations2 m c) (weights2 m c)
theorem bias3 : W3 m c (Proc.devRef .tc main_v41) = shapeCast S1x128 (X2 m c) shapeCasts_S128_S1x128 :=
  (Stages.bias_row (W2 m c)).trans (congrArg (fun x => shapeCast S1x128 x shapeCasts_S128_S1x128) (arg2_2 m c))
theorem gamma3 : W3 m c (Proc.devRef .tc main_v42) = shapeCast S1x128 (X3 m c) shapeCasts_S128_S1x128 :=
  (Stages.gamma_row (W2 m c)).trans (congrArg (fun x => shapeCast S1x128 x shapeCasts_S128_S1x128) (arg3_2 m c))
theorem beta3 : W3 m c (Proc.devRef .tc main_v43) = shapeCast S1x128 (X4 m c) shapeCasts_S128_S1x128 :=
  (Stages.beta_row (W2 m c)).trans (congrArg (fun x => shapeCast S1x128 x shapeCasts_S128_S1x128) (arg4_2 m c))

/-- The array the statistics run over is the reference's a. -/
theorem a_is_ref : Stats.aOf (V3 m) c = Cert.ReferenceIdeal.Read.val_main_v43 (F := Ideal) (X0 m c) (X1 m c) (X2 m c) (X5 m c) :=
  (congrArg₂ Stats.biased (aggregate3 m c) (bias3 m c)).trans (Bridges.biased_eq_ref _ _ _ _)

/-- After the statistics region: a, its column means, its column variances; the scale and shift rows untouched. -/
theorem a4 : W4 m c (Proc.devRef .tc main_v44_0) = Stats.aOf (V3 m) c := (W4_arr m c 2).trans (Stats.a_final (V3 m) c)
theorem mean4 : W4 m c (Proc.devRef .tc main_v44_1) = Stats.meanRow (Stats.aOf (V3 m) c) := (W4_arr m c 3).trans (Stats.mean_final (V3 m) c)
theorem var4 : W4 m c (Proc.devRef .tc main_v44_2) = Stats.varRow (Stats.aOf (V3 m) c) := (W4_arr m c 4).trans (Stats.var_final (V3 m) c)
theorem gamma4 : W4 m c (Proc.devRef .tc main_v42) = shapeCast S1x128 (X3 m c) shapeCasts_S128_S1x128 :=
  (W4_of_ne m c main_v42 (by decide)).trans (gamma3 m c)
theorem beta4 : W4 m c (Proc.devRef .tc main_v43) = shapeCast S1x128 (X4 m c) shapeCasts_S128_S1x128 :=
  (W4_of_ne m c main_v43 (by decide)).trans (beta3 m c)

theorem rectified_congr {a a' : S100000x128.Idx → EReal} {mu mu' v v' g g' be be' : S1x128.Idx → EReal}
    (h0 : a = a') (h1 : mu = mu') (h2 : v = v') (h3 : g = g') (h4 : be = be') :
    Normalize.rectified a mu v g be = Normalize.rectified a' mu' v' g' be' := by
  subst h0 h1 h2 h3 h4; rfl

/-- THE RESULT: the batch normalisation of the reference's a, variance as mean of squares minus squared mean. -/
theorem result : W5 m c (Proc.devRef .tc main_v45)
    = bnKernel (Cert.ReferenceIdeal.Read.val_main_v43 (F := Ideal) (X0 m c) (X1 m c) (X2 m c) (X5 m c)) (fun k => X3 m c (ix1 k)) (fun k => X4 m c (ix1 k)) :=
  (W5_arr m c 5).trans <| (Normalize.y_final (V4 m) c).trans <|
    (rectified_congr (a4 m c) (mean4 m c) (var4 m c) (gamma4 m c) (beta4 m c)).trans <|
      (Bridges.rectified_rows _ _ _ _ _ rfl rfl).trans
        (congrArg (fun a => bnKernel a (fun k => X3 m c (ix1 k)) (fun k => X4 m c (ix1 k))) (a_is_ref m c))

end Cert.KernelIdeal.Whole

end
-- ==== Proof.RefIsSpec.lean ====
/-
  The reference's last stage is the batch normalisation of its own aggregate.

  Call A the reference's array of aggregated features plus bias (100000 × 128). Everything after A depends on the
  arguments only through A, the scale γ and the shift β: the column mean μ_c = (Σ_p A(p,c)) / n, the variance
  (Σ_p (A(p,c) − μ_c)²) / n, and the entry max((γ_c · (A(p,c) − μ_c)) · rsqrt(var_c + ε) + β_c, 0). Read stage by stage
  at the entry (p, c): a row vector spread down the rows reads its entry c, a column sum reads the initial zero plus
  the sum over the rows, and the remaining operations act entry by entry.
-/
import proofs.«110603_j82575041232956_1_alg».proof.Proof.Gen.ReferenceIdeal.Read
import proofs.«110603_j82575041232956_1_alg».proof.Proof.BnSpec

noncomputable section

open scoped BigOperators

namespace Cert.RefSide

open Cert.ReferenceIdeal Cert.ReferenceIdeal.Gen Cert.ReferenceIdeal.Read Idealize.ShloMosaic
  Idealize.ShloMosaic.ValueIdx

/-! ## Where each stage reads its operand -/

/-- Row k of column c: where the two column sums read the array. -/
theorem idx44 (c : Fin 128) (k : Fin 100000) : idx_main_v44 (ix1 c) k = ix2 k c :=
  funext fun a => Fin.ext (by match a with | ⟨0, _⟩ => rfl | ⟨1, _⟩ => rfl)
theorem idx51 (c : Fin 128) (k : Fin 100000) : idx_main_v51 (ix1 c) k = ix2 k c :=
  funext fun a => Fin.ext (by match a with | ⟨0, _⟩ => rfl | ⟨1, _⟩ => rfl)

/-- A vector of 128 spread as one row and then down the 100000 rows reads, at (p, c), its entry c. -/
theorem idx47_48 (p : Fin 100000) (c : Fin 128) : idx_main_v47 (idx_main_v48 (ix2 p c)) = ix1 c :=
  funext fun a => Fin.ext (by match a with | ⟨0, _⟩ => rfl)
theorem idx54_55 (p : Fin 100000) (c : Fin 128) : idx_main_v54 (idx_main_v55 (ix2 p c)) = ix1 c :=
  funext fun a => Fin.ext (by match a with | ⟨0, _⟩ => rfl)
theorem idx57_58 (p : Fin 100000) (c : Fin 128) : idx_main_v57 (idx_main_v58 (ix2 p c)) = ix1 c :=
  funext fun a => Fin.ext (by match a with | ⟨0, _⟩ => rfl)
theorem idx63_64 (p : Fin 100000) (c : Fin 128) : idx_main_v63 (idx_main_v64 (ix2 p c)) = ix1 c :=
  funext fun a => Fin.ext (by match a with | ⟨0, _⟩ => rfl)
theorem idx66_67 (p : Fin 100000) (c : Fin 128) : idx_main_v66 (idx_main_v67 (ix2 p c)) = ix1 c :=
  funext fun a => Fin.ext (by match a with | ⟨0, _⟩ => rfl)

section Stages

variable (x0 : (⟨S100000x128, .f32⟩ : BufTy).Contents (Elt Ideal)) (x1 : (⟨S128x128, .f32⟩ : BufTy).Contents (Elt Ideal))
  (x2 x3 x4 : (⟨S128, .f32⟩ : BufTy).Contents (Elt Ideal)) (x5 : (⟨S2x800000, .i32⟩ : BufTy).Contents (Elt Ideal))

/-- The reference's mean of column c is μ_c of its aggregate: the zero the sum starts from is the real zero. -/
theorem mean_stage (c : Fin 128) :
    val_main_v46 (F := Ideal) x0 x1 x2 x5 (ix1 c) = colMean (val_main_v43 (F := Ideal) x0 x1 x2 x5) c := by
  rw [val_main_v46_apply, val_main_v44_apply, val_main_v45_apply, val_main_cst_8_apply, val_main_cst_7_apply,
    Ideal.hostDivf_def]
  simp only [Ideal.ofBits_def, Ideal.ofBits_zero_f32, zero_add]
  unfold colMean colSum
  exact congrArg₂ Ideal.div (Finset.sum_congr rfl fun k _ => congrArg _ (idx44 c k)) rfl

/-- The reference's variance of column c is the mean of the squared deviations of its aggregate from μ_c. -/
theorem var_stage (c : Fin 128) :
    val_main_v53 (F := Ideal) x0 x1 x2 x5 (ix1 c) = varOfDeviations (val_main_v43 (F := Ideal) x0 x1 x2 x5) c := by
  rw [val_main_v53_apply, val_main_v51_apply, val_main_v52_apply, val_main_cst_10_apply, val_main_cst_9_apply,
    Ideal.hostDivf_def]
  simp only [Ideal.ofBits_def, Ideal.ofBits_zero_f32, zero_add]
  unfold varOfDeviations
  refine congrArg₂ Ideal.div (Finset.sum_congr rfl fun k _ => ?_) rfl
  rw [idx51 c k, val_main_v50_apply, val_main_v49_apply, val_main_v48_apply, val_main_v47_apply, idx47_48, mean_stage]
  rfl

/-- The reference's result is the batch normalisation, in the mean-of-squared-deviations arrangement, of its
    aggregate, with the scale and shift vectors read entry by entry. -/
theorem ref_is_bnRef :
    val_main_v69 (F := Ideal) x0 x1 x2 x3 x4 x5
      = bnRef (val_main_v43 (F := Ideal) x0 x1 x2 x5) (fun c => x3 (ix1 c)) (fun c => x4 (ix1 c)) := by
  funext i
  obtain ⟨p, c, rfl⟩ : ∃ (p : Fin 100000) (c : Fin 128), i = ix2 p c := ⟨i 0, i 1, eq_ix2 i⟩
  rw [bnRef_apply, val_main_v69_apply, val_main_v68_apply, val_main_v65_apply, val_main_v59_apply,
    val_main_v58_apply, val_main_v57_apply, idx57_58, val_main_v56_apply, val_main_v55_apply, val_main_v54_apply,
    idx54_55, mean_stage, val_main_v64_apply, val_main_v63_apply, idx63_64, val_main_v62_apply, val_main_v61_apply,
    var_stage, val_main_v60_apply, val_main_cst_11_apply, val_main_v67_apply, val_main_v66_apply, idx66_67,
    val_main_call0_v0_apply, val_main_call0_cst_apply]
  simp only [Ideal.ofBits_def, Ideal.ofBits_zero_f32]
  rfl

end Stages

end Cert.RefSide

end
-- ==== Proof.IsReal.lean ====
/-
  Extended reals that are real numbers.

  An extended real is called real here when it is the coercion of a real number, that is, neither infinity. Sums,
  products and finite sums of reals are real, a choice between two reals is real, a count of positions that includes
  one sure position is a positive real, and the reciprocal square root of a positive real is real. A single-precision
  value whose absolute value compares below the pattern of +∞ is real.
-/
import Idealize.ShloMosaic.PureOps.Ideal
import proofs.«110603_j82575041232956_1_alg».proof.Proof.LibSubDot

noncomputable section

open scoped BigOperators

namespace Cert.RefSide

open Idealize.ShloMosaic

/-- x is the coercion of a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.ite {p : Prop} [Decidable p] {x y : EReal} (hx : IsReal x) (hy : IsReal y) :
    IsReal (if p then x else y) := by
  split
  · exact hx
  · exact hy

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- Counting, with weight one, the positions of a finite range that satisfy P gives a positive real as soon as one
    position is known to satisfy P: the count is a sum of zeros and ones, and it is at least the one of that position. -/
theorem count_pos {E : ℕ} (P : Fin E → Prop) [DecidablePred P] (e0 : Fin E) (h0 : P e0) :
    ∃ r : ℝ, 0 < r ∧ (∑ e : Fin E, if P e then (1 : EReal) else 0) = (r : EReal) := by
  refine ⟨∑ e : Fin E, if P e then (1 : ℝ) else 0, ?_, ?_⟩
  · have hle : (if P e0 then (1 : ℝ) else 0) ≤ ∑ e : Fin E, if P e then (1 : ℝ) else 0 :=
      Finset.single_le_sum (f := fun e => if P e then (1 : ℝ) else 0)
        (fun e _ => by split <;> norm_num) (Finset.mem_univ e0)
    rw [if_pos h0] at hle
    exact lt_of_lt_of_le one_pos hle
  · rw [Cert.Bridge.coe_sum]
    refine Finset.sum_congr rfl fun e _ => ?_
    split
    · exact EReal.coe_one.symm
    · exact EReal.coe_zero.symm

/-- The reciprocal square root of a positive real is the real 1 / √r. -/
theorem IsReal.rsqrt_of_pos {r : ℝ} (hr : 0 < r) : IsReal (Ideal.rsqrt (r : EReal)) := by
  rw [Ideal.rsqrt_coe, if_neg (not_lt.mpr hr.le), if_neg hr.ne']
  exact ⟨_, rfl⟩

/-- The single-precision pattern 0x7F800000 denotes +∞. -/
theorem ofBits_inf : Ideal.ofBits .f32 0x7F800000#32 = ⊤ := by
  simp [Ideal.ofBits, Ideal.ieee]

/-- An extended real whose absolute value max(x, −x) compares (as a one-bit word) below +∞ is real: at either
    infinity the absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => exact absurd h (by simp [Ideal.cmp])
  | top => exact absurd h (by simp [Ideal.cmp])
  | coe r => exact ⟨r, rfl⟩

end Cert.RefSide

end
-- ==== Proof.FiniteInputs.lean ====
/-
  What the precondition says: every floating-point argument is finite.

  The precondition is the conjunction, over the five floating-point arguments, of "every entry's absolute value
  compares below +∞"; each conjunct is an all-reduction by `and` of the entrywise comparisons. That it equals the
  one-bit word 1 says each reduction is 1, hence each comparison is 1 at every index, hence every entry is a real
  number. The integer argument is not constrained.
-/
import proofs.«110603_j82575041232956_1_alg».proof.Proof.Gen.Pre_finite_inputs
import proofs.«110603_j82575041232956_1_alg».proof.Proof.IsReal
import Idealize.ShloMosaic.Lib.ReduceAll
import Idealize.ShloMosaic.Lib.IdealHost
import Idealize.ShloMosaic.Lib.ValueIdx

noncomputable section

namespace Cert.RefSide

open Idealize.ShloMosaic Idealize.ShloMosaic.ValueIdx Cert.Pre_finite_inputs

/-- The scalar shape has one index. -/
instance subsingleton_scalar_idx : Subsingleton (Cert.Pre_finite_inputs.S_).Idx := ⟨fun a b => funext fun d => d.elim0⟩

/-- One entry: where the comparison "|a| < +∞", the bound being the scalar pattern of +∞ spread over the shape, is 1
    at index i, the entry a i is real. -/
theorem isReal_of_cmp {s : Shape} (a : FVec Ideal s .f32) (hb : (⟨0, ![]⟩ : Shape).BroadcastsInDim s ![]) (i : s.Idx)
    (h : cmpf .olt (Host.absf a) (broadcastInDim s ![] hb (constant (⟨0, ![]⟩ : Shape) .f32 0x7F800000#32)) i = 1#1) :
    IsReal (a i) := by
  rw [cmpf_apply, broadcastInDim_scalar_apply] at h
  exact isReal_of_abs_lt_inf (a i) h

variable [Cert.Pre_finite_inputs.Facts]

/-- The precondition at the extended reals: every entry of each of the five floating-point arguments is real. -/
theorem finite_of_pre (a0 : FVec Ideal S100000x128 .f32) (a1 : FVec Ideal S128x128 .f32) (a2 a3 a4 : FVec Ideal S128 .f32)
    (a5 : IVec S2x800000 32) (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [Cert.Pre_finite_inputs.fn, Cert.Pre_finite_inputs.fn_part1] at h0
  obtain ⟨h0123, r4⟩ := IntOp.andi_eq_one.1 h0
  obtain ⟨h012, r3⟩ := IntOp.andi_eq_one.1 h0123
  obtain ⟨h01, r2⟩ := IntOp.andi_eq_one.1 h012
  obtain ⟨r0, r1⟩ := IntOp.andi_eq_one.1 h01
  exact ⟨fun i => isReal_of_cmp a0 _ i (Host.reduce_andi_all _ _ _ _ ix0 r0 i),
    fun i => isReal_of_cmp a1 _ i (Host.reduce_andi_all _ _ _ _ ix0 r1 i),
    fun i => isReal_of_cmp a2 _ i (Host.reduce_andi_all _ _ _ _ ix0 r2 i),
    fun i => isReal_of_cmp a3 _ i (Host.reduce_andi_all _ _ _ _ ix0 r3 i),
    fun i => isReal_of_cmp a4 _ i (Host.reduce_andi_all _ _ _ _ ix0 r4 i)⟩

end Cert.RefSide

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.RefFinite.lean ====
/-
  The reference's aggregate is finite, whatever the edge list holds.

  Call A the reference's array of aggregated features plus bias. If every entry of the features x, the weights W and
  the bias b is a real number then so is every entry of A, for ANY integer edge list:
  * the destination list is the edge list's second row followed by the nodes 0, 1, …, 99999 themselves, so position
    800000 + n of it is n; the degree of node n — zero plus a one for every position whose destination is n — is
    therefore a count that includes position 800000 + n: a positive real, and its reciprocal square root is real;
  * a gather returns an entry of the array it reads (whichever row the index is clamped to), so the two gathered
    degree factors, their product, and that product spread over the feature columns are real;
  * an entry of x · W is a finite sum of products of reals; a gathered row of it is real; the scaled messages are
    products of reals;
  * the accumulating scatter into zeros reads zero plus a finite sum of messages (an update whose index is out of
    range is simply not among them); adding the bias keeps it real.
-/
import proofs.«110603_j82575041232956_1_alg».proof.Proof.Gen.ReferenceIdeal.Read
import proofs.«110603_j82575041232956_1_alg».proof.Proof.IsReal
import proofs.«110603_j82575041232956_1_alg».proof.Proof.LibJoinIota
import proofs.«110603_j82575041232956_1_alg».proof.Proof.LibVecIndex
import proofs.«110603_j82575041232956_1_alg».proof.Proof.LibGatherRows
import proofs.«110603_j82575041232956_1_alg».proof.Proof.LibScatterRows

noncomputable section

open scoped BigOperators

namespace Cert.RefSide

open Cert.ReferenceIdeal Cert.ReferenceIdeal.Gen Cert.ReferenceIdeal.Read Idealize.ShloMosaic
  Idealize.ShloMosaic.ValueIdx

/-- Realness moves along an equation. -/
theorem IsReal.of_eq {x y : EReal} (h : x = y) (hy : IsReal y) : IsReal x := h ▸ hy

/-- The position of node n's own loop among the 900000 joined edges. -/
def selfPos (n : Fin 100000) : Fin 900000 := ⟨800000 + n.val, by have := n.isLt; omega⟩

section Stages

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x5 : (⟨S2x800000, .i32⟩ : BufTy).Contents (Elt Ideal))

/-! ## The degrees -/

/-- Position 800000 + n of the destination column holds, read signed, the node n itself: past the 800000 edges the
    joined list continues with the positions 0, 1, … of the node list. -/
theorem dst_self (n : Fin 100000) :
    (val_main_v9 (F := Ideal) x5 (ix2 (selfPos n) (0 : Fin 1))).toInt = (n.val : Int) := by
  have hn := n.isLt
  have e9 : idx_main_v9 (ix2 (selfPos n) (0 : Fin 1)) = ix1 (selfPos n) :=
    funext fun a => Fin.ext (by match a with | ⟨0, _⟩ => rfl)
  have he : 800000 ≤ (selfPos n).val := by show 800000 ≤ 800000 + n.val; omega
  have hB : (selfPos n).val - 800000 < 100000 := by show 800000 + n.val - 800000 < 100000; omega
  rw [val_main_v9_apply, e9]
  refine (congrArg BitVec.toInt (JoinIota.concatenate_vec_apply_right (val_main_v5 (F := Ideal) x5)
    (val_main_v0 (F := Ideal)) concatenates_S800000_S100000_S900000_d0 (selfPos n) he hB)).trans ?_
  refine (JoinIota.iota_vec_toInt (N := 100000) (by norm_num) ⟨(selfPos n).val - 800000, hB⟩).trans ?_
  show ((800000 + n.val - 800000 : ℕ) : Int) = (n.val : Int)
  omega

/-- The degree of node n is a positive real: zero plus a one for each position whose destination is n, the node's own
    loop among them. -/
theorem deg_pos (n : Fin 100000) : ∃ r : ℝ, 0 < r ∧ val_main_v10 (F := Ideal) x5 (ix1 n) = (r : EReal) := by
  have hd : scatter_S100000_S900000x1_S900000_n_0_0_1
      = ScatterVec.vecDims 100000 900000 scatter_S100000_S900000x1_S900000_n_0_0_1_wf := rfl
  have e := ScatterVec.host_scatterAdd_vec_apply (φ := .f32) scatter_S100000_S900000x1_S900000_n_0_0_1_wf
    scatter_S100000_S900000x1_S900000_n_0_0_1 hd (val_main_v8 (F := Ideal)) (val_main_v9 (F := Ideal) x5)
    (val_main_v7 (F := Ideal)) n
  have e8 : val_main_v8 (F := Ideal) (ix1 n) = 0 := by
    rw [val_main_v8_apply, val_main_cst_0_apply]; exact Ideal.ofBits_zero_f32
  have e7 : ∀ e : Fin 900000, val_main_v7 (F := Ideal) (ix1 e) = 1 := fun e => by
    rw [val_main_v7_apply, val_main_cst_apply]; exact Ideal.ofBits_one_f32
  obtain ⟨r, hr, hs⟩ := count_pos
    (fun e : Fin 900000 => (val_main_v9 (F := Ideal) x5 (ix2 e (0 : Fin 1))).toInt = (n.val : Int)) (selfPos n)
    (dst_self x5 n)
  refine ⟨r, hr, e.trans ?_⟩
  rw [e8, zero_add, ← hs]
  exact Finset.sum_congr rfl fun e _ => by rw [e7 e]

/-- The reciprocal square root of every degree is real. -/
theorem inv_sqrt_deg_real (i : S100000.Idx) : IsReal (val_main_v11 (F := Ideal) x5 i) := by
  obtain ⟨n, rfl⟩ : ∃ n : Fin 100000, i = ix1 n := ⟨i 0, eq_ix1 i⟩
  obtain ⟨r, hr, h⟩ := deg_pos x5 n
  rw [val_main_v11_apply, h]
  exact IsReal.rsqrt_of_pos hr

/-! ## The edge weights -/

/-- The source-side degree factor of every edge is real: a gather returns an entry of what it reads. -/
theorem src_factor_real (i : S900000.Idx) : IsReal (val_main_v18 (F := Ideal) x5 i) := by
  obtain ⟨e, rfl⟩ : ∃ e : Fin 900000, i = ix1 e := ⟨i 0, eq_ix1 i⟩
  exact IsReal.of_eq (GatherVec.gather_vec_apply (N := 100000) (by norm_num)
    gather_S100000_S900000x1_S900000_n_0_n_n_0_1_1_wf (val_main_v11 (F := Ideal) x5) (val_main_v17 (F := Ideal) x5) e)
    (inv_sqrt_deg_real x5 _)

/-- The destination-side degree factor of every edge is real. -/
theorem dst_factor_real (i : S900000.Idx) : IsReal (val_main_v25 (F := Ideal) x5 i) := by
  obtain ⟨e, rfl⟩ : ∃ e : Fin 900000, i = ix1 e := ⟨i 0, eq_ix1 i⟩
  exact IsReal.of_eq (GatherVec.gather_vec_apply (N := 100000) (by norm_num)
    gather_S100000_S900000x1_S900000_n_0_n_n_0_1_1_wf (val_main_v11 (F := Ideal) x5) (val_main_v24 (F := Ideal) x5) e)
    (inv_sqrt_deg_real x5 _)

/-- The weight of every edge, the product of its two degree factors, is real. -/
theorem edge_weight_real (i : S900000.Idx) : IsReal (val_main_v26 (F := Ideal) x5 i) := by
  rw [val_main_v26_apply]
  exact IsReal.mul (src_factor_real x5 i) (dst_factor_real x5 i)

/-- … and so is the weight spread over the feature columns. -/
theorem edge_weight_cols_real (i : S900000x128.Idx) : IsReal (val_main_v36 (F := Ideal) x5 i) := by
  rw [val_main_v36_apply, val_main_v35_apply]
  exact edge_weight_real x5 _

/-! ## The messages and the aggregate -/

variable (hx0 : ∀ i, IsReal (x0 i)) (hx1 : ∀ i, IsReal (x1 i)) (hx2 : ∀ i, IsReal (x2 i))
include hx0 hx1

/-- Every entry of x · W is a finite sum of products of reals. -/
theorem xw_real (i : S100000x128.Idx) : IsReal (val_main_v27 (F := Ideal) x0 x1 i) := by
  rw [val_main_v27_apply]
  exact IsReal.sum _ _ fun k _ => IsReal.mul (hx0 _) (hx1 _)

/-- Every gathered row of x · W is real. -/
theorem xw_rows_real (i : S900000x128.Idx) : IsReal (val_main_v34 (F := Ideal) x0 x1 x5 i) := by
  obtain ⟨e, c, rfl⟩ : ∃ (e : Fin 900000) (c : Fin 128), i = ix2 e c := ⟨i 0, i 1, eq_ix2 i⟩
  exact IsReal.of_eq (GatherRows.gather_rows_apply (N := 100000) (by norm_num)
    gather_S100000x128_S900000x1_S900000x128_1_0_n_n_0_1_1128_wf (val_main_v27 (F := Ideal) x0 x1)
    (val_main_v33 (F := Ideal) x5) e c) (xw_real x0 x1 hx0 hx1 _)

/-- Every message entry, a gathered entry of x · W times the edge's weight, is real. -/
theorem msg_real (i : S900000x128.Idx) : IsReal (val_main_v37 (F := Ideal) x0 x1 x5 i) := by
  rw [val_main_v37_apply]
  exact IsReal.mul (xw_rows_real x0 x1 x5 hx0 hx1 i) (edge_weight_cols_real x5 i)

/-- Every entry of the scattered sum is real: zero plus a finite sum of message entries and zeros. -/
theorem scattered_real (i : S100000x128.Idx) : IsReal (val_main_v40 (F := Ideal) x0 x1 x5 i) := by
  obtain ⟨n, c, rfl⟩ : ∃ (n : Fin 100000) (c : Fin 128), i = ix2 n c := ⟨i 0, i 1, eq_ix2 i⟩
  have hd : scatter_S100000x128_S900000x1_S900000x128_1_0_0_1
      = ScatterRows.rowDims 100000 900000 128 scatter_S100000x128_S900000x1_S900000x128_1_0_0_1_wf := rfl
  refine IsReal.of_eq (ScatterRows.host_scatterAdd_rows_apply (φ := .f32)
    scatter_S100000x128_S900000x1_S900000x128_1_0_0_1_wf scatter_S100000x128_S900000x1_S900000x128_1_0_0_1 hd
    (val_main_v38 (F := Ideal)) (val_main_v39 (F := Ideal) x5) (val_main_v37 (F := Ideal) x0 x1 x5) n c) ?_
  refine IsReal.add ?_ (IsReal.sum _ _ fun e _ => IsReal.ite (msg_real x0 x1 x5 hx0 hx1 _) IsReal.zero)
  rw [val_main_v38_apply, val_main_cst_6_apply]
  exact IsReal.of_eq Ideal.ofBits_zero_f32 IsReal.zero

include hx2

/-- Every entry of the aggregate — the scattered sum plus the bias of its column — is real. -/
theorem aggregate_real (i : S100000x128.Idx) : IsReal (val_main_v43 (F := Ideal) x0 x1 x2 x5 i) := by
  rw [val_main_v43_apply]
  refine IsReal.add (scattered_real x0 x1 x5 hx0 hx1 i) ?_
  rw [val_main_v42_apply, val_main_v41_apply]
  exact hx2 _

end Stages

end Cert.RefSide

end
-- ==== Proof.AggregateFinite.lean ====
/-
  Under the precondition the reference's aggregate is finite.

  The precondition says the three floating-point arguments the aggregate depends on — the features, the weights and
  the bias — have only real entries; the aggregate of real features, weights and bias is real at every entry, for
  any edge list. Stated at the entry (p, c), in the form the law between the two variance arrangements asks for.
-/
import proofs.«110603_j82575041232956_1_alg».proof.Proof.FiniteInputs
import proofs.«110603_j82575041232956_1_alg».proof.Proof.RefFinite

noncomputable section

namespace Cert.RefSide

open Cert.ReferenceIdeal Cert.ReferenceIdeal.Read Idealize.ShloMosaic Idealize.ShloMosaic.ValueIdx

variable [Cert.Pre_finite_inputs.Facts]

/-- If the finiteness predicate of the six arguments is the one-bit word 1, every entry of the reference's aggregate
    of those arguments is the coercion of a real number. -/
theorem aggregate_real_of_pre (x0 : (⟨S100000x128, .f32⟩ : BufTy).Contents (Elt Ideal))
    (x1 : (⟨S128x128, .f32⟩ : BufTy).Contents (Elt Ideal)) (x2 x3 x4 : (⟨S128, .f32⟩ : BufTy).Contents (Elt Ideal))
    (x5 : (⟨S2x800000, .i32⟩ : BufTy).Contents (Elt Ideal))
    (h : Cert.Pre_finite_inputs.fn (F := Ideal) x0 x1 x2 x3 x4 x5 = fun _ => 1#1) (p : Fin 100000) (c : Fin 128) :
    ∃ r : ℝ, val_main_v43 (F := Ideal) x0 x1 x2 x5 (ix2 p c) = (r : EReal) := by
  obtain ⟨h0, h1, h2, -, -⟩ := finite_of_pre x0 x1 x2 x3 x4 x5 h
  exact aggregate_real x0 x1 x2 x5 h0 h1 h2 (ix2 p c)

end Cert.RefSide

end
-- ==== Proof.RefJoin.lean ====
/-
  Under the precondition, the reference's result in the other arrangement of the variance.

  The reference's result is the batch normalisation of its aggregate with the variance taken as the mean of the
  squared deviations; under the precondition the aggregate is finite, and for a finite array that arrangement equals
  the one with the variance taken as the mean of the squares minus the squared mean.
-/
import proofs.«110603_j82575041232956_1_alg».proof.Proof.RefIsSpec
import proofs.«110603_j82575041232956_1_alg».proof.Proof.AggregateFinite

noncomputable section

namespace Cert.RefSide

open Cert.ReferenceIdeal Cert.ReferenceIdeal.Read Idealize.ShloMosaic Idealize.ShloMosaic.ValueIdx

variable [Cert.Pre_finite_inputs.Facts]

/-- If the finiteness predicate of the six arguments is the one-bit word 1, the reference's result is the batch
    normalisation of its aggregate in the mean-of-squares-minus-squared-mean arrangement. -/
theorem ref_is_bnKernel_of_pre (x0 : (⟨S100000x128, .f32⟩ : BufTy).Contents (Elt Ideal))
    (x1 : (⟨S128x128, .f32⟩ : BufTy).Contents (Elt Ideal)) (x2 x3 x4 : (⟨S128, .f32⟩ : BufTy).Contents (Elt Ideal))
    (x5 : (⟨S2x800000, .i32⟩ : BufTy).Contents (Elt Ideal))
    (h : Cert.Pre_finite_inputs.fn (F := Ideal) x0 x1 x2 x3 x4 x5 = fun _ => 1#1) :
    val_main_v69 (F := Ideal) x0 x1 x2 x3 x4 x5
      = bnKernel (val_main_v43 (F := Ideal) x0 x1 x2 x5) (fun c => x3 (ix1 c)) (fun c => x4 (ix1 c)) :=
  (ref_is_bnRef x0 x1 x2 x3 x4 x5).trans
    (bnKernel_eq_bnRef _ _ _ (aggregate_real_of_pre x0 x1 x2 x3 x4 x5 h)).symm

end Cert.RefSide

end
-- ==== Proof.lean ====
/-
  A graph-convolution layer followed by batch normalisation and a rectifier, on 100000 nodes with 128 features:
  h = x · W; every edge (and a self-loop at every node) carries deg(src)^(−1/2) · deg(dst)^(−1/2) · h[src] to its
  destination; a = (the sum arriving at each node) + b; each of the 128 columns of a is normalised by its mean and
  variance over the nodes, scaled by γ, shifted by β and rectified.

  The kernel program computes h, the column statistics and the normalisation in three grid-tiled regions of twenty
  points each (5000 rows per point) and leaves the gathers and the scatter-add to the same host operations the
  reference uses. The two programs differ in one place: the reference takes the variance as the mean of the squared
  deviations from the mean, the kernel as the mean of the squares minus the squared mean, from two running column sums
  carried across the grid points. Over the reals the two agree; on the extended reals they agree when every entry of a
  is a real number, which the finiteness of the inputs gives whatever the edge index holds: every node has its own
  self-loop, so every degree is at least one, its inverse square root is a positive real, and every entry of a is a
  finite sum of products of reals.

  The three frame claims: the kernel programs' by the run through their segments (host operations, region, host
  operations, region, region), the argument arrays untouched by every segment; the reference's by its run. Nothing was
  rewritten by the idealisation, so the kernel's idealised program is its own text read over exact arithmetic.
-/
import proofs.«110603_j82575041232956_1_alg».proof.Defs
import proofs.«110603_j82575041232956_1_alg».proof.Proof.Gen.Kernel
import proofs.«110603_j82575041232956_1_alg».proof.Proof.Gen.KernelIdeal
import proofs.«110603_j82575041232956_1_alg».proof.Proof.Gen.ReferenceIdeal
import proofs.«110603_j82575041232956_1_alg».proof.Proof.Gen.ReferenceIdeal.Run
import proofs.«110603_j82575041232956_1_alg».proof.Proof.Gen.ReferenceIdeal.Read
import proofs.«110603_j82575041232956_1_alg».proof.Proof.Gen.Pre_finite_inputs
import proofs.«110603_j82575041232956_1_alg».proof.Proof.K.Run
import proofs.«110603_j82575041232956_1_alg».proof.Proof.KI.Result
import proofs.«110603_j82575041232956_1_alg».proof.Proof.RefJoin
import Idealize.ShloMosaic.Adequacy
import Idealize.ShloMosaic.Init

noncomputable section

namespace Cert.Proof

open Idealize.ShloMosaic Idealize.ShloMosaic.TcCoe Idealize.SL.Sem
open Idealize.ShloMosaic.ValueIdx

/-- The printed kernel program runs to the end, faults nowhere, and leaves its arguments as launched. -/
theorem frame_kernel : Cert.frame_Kernel := fun m ρ _ => Cert.Kernel.Whole.frame (F := Bits) m ρ

/-- So does the same program read over exact arithmetic. -/
theorem frame_kernelIdeal : Cert.frame_KernelIdeal := fun m ρ _ => Cert.KernelIdeal.Whole.frame (F := Ideal) m ρ

/-- The reference is a line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

open Cert.KernelIdeal.Whole in
/-- Both programs end with the batch normalisation of the same array a, the variance taken as the mean of the squares
    minus the squared mean: the kernel by construction, the reference because a is real-valued. -/
theorem algebraic : Cert.algebraic_KernelIdeal_ReferenceIdeal := by
  intro m ρ m' ρ' hpre hagree
  refine ⟨fun c => Cert.RefSide.bnKernel
      (Cert.ReferenceIdeal.Read.val_main_v43 (F := Ideal) (X0 m c) (X1 m c) (X2 m c) (X5 m c))
      (fun k => X3 m c (ix1 k)) (fun k => X4 m c (ix1 k)), ?_, ?_⟩
  · refine (θ_run (Cert.KernelIdeal.defs (F := Ideal)) _ _).mono (fun r h c => ?_) (Cert.KernelIdeal.Whole.run (F := Ideal) m ρ)
    exact ⟨(h c _ (mem_uc Cert.KernelIdeal.main_v45 (by decide))).trans (result m c),
      (h c _ (mem_uc Cert.KernelIdeal.main_arg0 (by decide))).trans (W5_main_arg0 m c),
      (h c _ (mem_uc Cert.KernelIdeal.main_arg1 (by decide))).trans (W5_main_arg1 m c),
      (h c _ (mem_uc Cert.KernelIdeal.main_arg2 (by decide))).trans (W5_main_arg2 m c),
      (h c _ (mem_uc Cert.KernelIdeal.main_arg3 (by decide))).trans (W5_main_arg3 m c),
      (h c _ (mem_uc Cert.KernelIdeal.main_arg4 (by decide))).trans (W5_main_arg4 m c),
      (h c _ (mem_uc Cert.KernelIdeal.main_arg5 (by decide))).trans (W5_main_arg5 m c)⟩
  · refine (θ_run (Cert.ReferenceIdeal.defs (F := Ideal)) _ _).mono (fun r h c => ⟨?_, (h c).2⟩)
      (Cert.ReferenceIdeal.Value.run (F := Ideal) m' ρ')
    obtain ⟨e0, e1, e2, e3, e4, e5⟩ := hagree c
    rw [(h c).1, Cert.ReferenceIdeal.Read.val_main_v69_eq, e0, e1, e2, e3, e4, e5]
    exact Cert.RefSide.ref_is_bnKernel_of_pre _ _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
